-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x32 : Shape := ⟨2, ![16, 32]⟩
abbrev S32 : Shape := ⟨1, ![32]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x32 .f32) (main_arg5 : FVec F S32 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x32 : Shape := ⟨2, ![16, 32]⟩
abbrev S32 : Shape := ⟨1, ![32]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x32 : Shape := ⟨2, ![100000, 32]⟩
abbrev S3300000x32 : Shape := ⟨2, ![3300000, 32]⟩
abbrev S1x32 : Shape := ⟨2, ![1, 32]⟩
abbrev S2000x512 : Shape := ⟨2, ![2000, 512]⟩
abbrev S2000x16 : Shape := ⟨2, ![2000, 16]⟩
abbrev S10000x16 : Shape := ⟨2, ![10000, 16]⟩
abbrev S10000x32 : Shape := ⟨2, ![10000, 32]⟩
abbrev S10000 : Shape := ⟨1, ![10000]⟩
abbrev S10000x1 : Shape := ⟨2, ![10000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x32, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x32, .f32⟩
  | .hbm, ⟨74, _⟩ => ⟨S3300000x1, .f32⟩
  | .hbm, ⟨75, _⟩ => ⟨S3300000x32, .f32⟩
  | .hbm, ⟨76, _⟩ => ⟨S3300000x32, .f32⟩
  | .hbm, ⟨77, _⟩ => ⟨S_, .f32⟩
  | .hbm, ⟨78, _⟩ => ⟨S100000x32, .f32⟩
  | .hbm, ⟨79, _⟩ => ⟨S3300000x1, .i32⟩
  | .hbm, ⟨80, _⟩ => ⟨S100000x32, .f32⟩
  | .hbm, ⟨81, _⟩ => ⟨S1x32, .f32⟩
  | .hbm, ⟨82, _⟩ => ⟨S100000x32, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S1x32, .f32⟩
  | .local _ .vmem, ⟨14, _⟩ => ⟨S10000x32, .f32⟩
  | .local _ .vmem, ⟨15, _⟩ => ⟨S10000x32, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst : Ref sig .tc := ⟨.hbm, 13, rfl⟩
abbrev main_call0_v7 : Ref sig .tc := ⟨.hbm, 14, rfl⟩
abbrev main_call0_cst_0 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst_1 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst_2 : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_v14 : Ref sig .tc := ⟨.hbm, 26, rfl⟩
abbrev main_call0_c : Ref sig .tc := ⟨.hbm, 27, rfl⟩
abbrev main_call0_v15 : Ref sig .tc := ⟨.hbm, 28, rfl⟩
abbrev main_call0_v16 : Ref sig .tc := ⟨.hbm, 29, rfl⟩
abbrev main_call0_c_3 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_c_4 : Ref sig .tc := ⟨.hbm, 36, rfl⟩
abbrev main_call0_v22 : Ref sig .tc := ⟨.hbm, 37, rfl⟩
abbrev main_call0_v23 : Ref sig .tc := ⟨.hbm, 38, rfl⟩
abbrev main_call0_c_5 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_call0_v27 : Ref sig .tc := ⟨.hbm, 43, rfl⟩
abbrev main_call0_v28 : Ref sig .tc := ⟨.hbm, 44, rfl⟩
abbrev main_call0_v29 : Ref sig .tc := ⟨.hbm, 45, rfl⟩
abbrev main_call0_v30 : Ref sig .tc := ⟨.hbm, 46, rfl⟩
abbrev main_call0_c_6 : Ref sig .tc := ⟨.hbm, 47, rfl⟩
abbrev main_call0_v31 : Ref sig .tc := ⟨.hbm, 48, rfl⟩
abbrev main_call0_v32 : Ref sig .tc := ⟨.hbm, 49, rfl⟩
abbrev main_call0_c_7 : Ref sig .tc := ⟨.hbm, 50, rfl⟩
abbrev main_call0_v33 : Ref sig .tc := ⟨.hbm, 51, rfl⟩
abbrev main_call0_v34 : Ref sig .tc := ⟨.hbm, 52, rfl⟩
abbrev main_call0_v35 : Ref sig .tc := ⟨.hbm, 53, rfl⟩
abbrev main_call0_v36 : Ref sig .tc := ⟨.hbm, 54, rfl⟩
abbrev main_call0_v37 : Ref sig .tc := ⟨.hbm, 55, rfl⟩
abbrev main_call0_v38 : Ref sig .tc := ⟨.hbm, 56, rfl⟩
abbrev main_call0_v39 : Ref sig .tc := ⟨.hbm, 57, rfl⟩
abbrev main_call0_v40 : Ref sig .tc := ⟨.hbm, 58, rfl⟩
abbrev main_call0_cst_8 : Ref sig .tc := ⟨.hbm, 59, rfl⟩
abbrev main_call0_v41 : Ref sig .tc := ⟨.hbm, 60, rfl⟩
abbrev main_call0_v42 : Ref sig .tc := ⟨.hbm, 61, rfl⟩
abbrev main_call0_v43 : Ref sig .tc := ⟨.hbm, 62, rfl⟩
abbrev main_call0_v44 : Ref sig .tc := ⟨.hbm, 63, rfl⟩
abbrev main_call0_v45 : Ref sig .tc := ⟨.hbm, 64, rfl⟩
abbrev main_call0_c_9 : Ref sig .tc := ⟨.hbm, 65, rfl⟩
abbrev main_call0_v46 : Ref sig .tc := ⟨.hbm, 66, rfl⟩
abbrev main_call0_v47 : Ref sig .tc := ⟨.hbm, 67, rfl⟩
abbrev main_call0_c_10 : Ref sig .tc := ⟨.hbm, 68, rfl⟩
abbrev main_call0_v48 : Ref sig .tc := ⟨.hbm, 69, rfl⟩
abbrev main_call0_v49 : Ref sig .tc := ⟨.hbm, 70, rfl⟩
abbrev main_call0_v50 : Ref sig .tc := ⟨.hbm, 71, rfl⟩
abbrev main_call0_v51 : Ref sig .tc := ⟨.hbm, 72, rfl⟩
abbrev main_call0_v52 : Ref sig .tc := ⟨.hbm, 73, rfl⟩
abbrev main_call0_v53 : Ref sig .tc := ⟨.hbm, 74, rfl⟩
abbrev main_call0_v54 : Ref sig .tc := ⟨.hbm, 75, rfl⟩
abbrev main_call0_v55 : Ref sig .tc := ⟨.hbm, 76, rfl⟩
abbrev main_call0_cst_11 : Ref sig .tc := ⟨.hbm, 77, rfl⟩
abbrev main_call0_v56 : Ref sig .tc := ⟨.hbm, 78, rfl⟩
abbrev main_call0_v57 : Ref sig .tc := ⟨.hbm, 79, rfl⟩
abbrev main_call0_v58 : Ref sig .tc := ⟨.hbm, 80, rfl⟩
abbrev main_call0_v59 : Ref sig .tc := ⟨.hbm, 81, rfl⟩
abbrev main_v0 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x32_S16x32_0_0 : ∀ a, (![0, 0] : Fin 2 → Nat) a + S16x32.size a ≤ S16x32.size a
  h_S16x32 : 0 < S16x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  reduces_S10000x32_S10000 : S10000x32.Reduces [1] S10000
  shapeCasts_S10000_S10000x1 : S10000.ShapeCasts S10000x1
  broadcasts_S10000x1_S10000x32 : S10000x1.Broadcasts S10000x32
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S2000x512_S512x16_S2000x16_1_0_0_1_n_n_wf : DotDims.WF S2000x512 S512x16 S2000x16 [1] [0] [0] [1] [] []
  dot_S10000x16_S16x32_S10000x32_1_0_0_1_n_n_wf : DotDims.WF S10000x16 S16x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v45) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v58) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v59) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x32 : Shape := ⟨2, ![16, 32]⟩
abbrev S32 : Shape := ⟨1, ![32]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x32 : Shape := ⟨2, ![100000, 32]⟩
abbrev S3300000x32 : Shape := ⟨2, ![3300000, 32]⟩
abbrev S1x32 : Shape := ⟨2, ![1, 32]⟩
abbrev S100000x1 : Shape := ⟨2, ![100000, 1]⟩

abbrev nBuf : Space → Nat
  | .hbm => 140
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x32, .f32⟩
  | 5 => ⟨S32, .f32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x32, .f32⟩
  | 70 => ⟨S100000, .i32⟩
  | 71 => ⟨S3300000, .i32⟩
  | 72 => ⟨S3300000, .i32⟩
  | 73 => ⟨S_, .f32⟩
  | 74 => ⟨S3300000, .f32⟩
  | 75 => ⟨S_, .f32⟩
  | 76 => ⟨S100000, .f32⟩
  | 77 => ⟨S3300000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000x32, .f32⟩
  | 115 => ⟨S3300000x1, .f32⟩
  | 116 => ⟨S3300000x32, .f32⟩
  | 117 => ⟨S3300000x32, .f32⟩
  | 118 => ⟨S_, .f32⟩
  | 119 => ⟨S100000x32, .f32⟩
  | 120 => ⟨S3300000x1, .i32⟩
  | 121 => ⟨S100000x32, .f32⟩
  | 122 => ⟨S1x32, .f32⟩
  | 123 => ⟨S100000x32, .f32⟩
  | 124 => ⟨S100000x32, .f32⟩
  | 125 => ⟨S_, .f32⟩
  | 126 => ⟨S100000, .f32⟩
  | 127 => ⟨S_, .f32⟩
  | _ => ⟨S100000x512, .f32⟩

abbrev hbmTy0_1 (i : Nat) : BufTy := match i % 128 with
  | 0 => ⟨S100000, .f32⟩
  | 1 => ⟨S100000, .f32⟩
  | 2 => ⟨S100000x1, .f32⟩
  | 3 => ⟨S100000x32, .f32⟩
  | 4 => ⟨S100000x32, .f32⟩
  | 5 => ⟨S100000x32, .f32⟩
  | 6 => ⟨S_, .f32⟩
  | 7 => ⟨S100000, .f32⟩
  | 8 => ⟨S100000x1, .f32⟩
  | 9 => ⟨S100000x1, .f32⟩
  | 10 => ⟨S100000x32, .f32⟩
  | 11 => ⟨S100000x32, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x32_S100000x32_1_0_0_1_n_n_wf : DotDims.WF S100000x16 S16x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

class Facts : Prop extends Facts₀ where

variable [Facts]
-- ==== Proof.KernelRun.lean ====
/-
  The idealized kernel's run, with its result named.

  The program is three kernel regions among stretches of host operations. Its buffers' contents are followed from the
  launch memory through the six segments: after a stretch they are the stretch's operations applied to the contents
  before it; after a region its arrays hold what the region's write-backs leave and every other buffer is as it was.
  Every weakly fair execution terminates, nothing faulting, in a state whose unscoped buffers hold the contents at the
  last boundary. Read at the result's buffer this names the result; read at the arguments' buffers it says that they
  are unchanged.
-/
import proofs.«123740_j44676249813403_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result's buffer then holds the
    contents at the last boundary and the six arguments are as launched. -/
theorem run_last : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Whole

end
-- ==== Proof.LibPlainDot.lean ====
/-
  A plain matrix product read at an index (program-independent; imports only the library).

  For the dimension numbers of an ordinary product of an `[M, K]` matrix by a `[K, N]` matrix — the left operand's
  second axis contracted with the right operand's first, no batch axis — the contraction index is one coordinate
  `k : Fin K`, the left operand is read at `(r, k)` and the right one at `(k, j)`. So at the ideal values both the
  kernel's matrix product into a zero accumulator and the host's general product are, at `(r, j)`, the sum over `k` of
  the products of the entries `(r, k)` and `(k, j)`.
-/
import Idealize.ShloMosaic.Lib.ValueIdx
import Idealize.ShloMosaic.PureOps.Ideal.Laws

noncomputable section

namespace Cert.PlainDot

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- At output `(r, j)` and contraction coordinate `k` the left operand is read at `(r, k)`. -/
theorem lhsIdx_plain (M K N : ℕ) (r : Fin M) (j : Fin N) (k : Fin K) :
    (DotDims.plain M K N).lhsIdx (ix2 r j) ((contrFin M K N).symm k) = ix2 r k := by
  funext a; apply Fin.ext
  match a with
  | ⟨0, _⟩ => rfl
  | ⟨1, _⟩ =>
    refine ((DotDims.plain M K N).lhsIdx_val_of_single (cl := (1 : Fin 2)) rfl (ix2 r j) _).trans ?_
    exact contrEquiv1_symm_val (DotDims.plain M K N) K rfl rfl k

/-- At output `(r, j)` and contraction coordinate `k` the right operand is read at `(k, j)`. -/
theorem rhsIdx_plain (M K N : ℕ) (r : Fin M) (j : Fin N) (k : Fin K) :
    (DotDims.plain M K N).rhsIdx (ix2 r j) ((contrFin M K N).symm k) = ix2 k j := by
  funext a; apply Fin.ext
  match a with
  | ⟨0, _⟩ =>
    refine ((DotDims.plain M K N).rhsIdx_val_of_single (cr := (0 : Fin 2)) rfl (ix2 r j) _).trans ?_
    exact contrEquiv1_symm_val (DotDims.plain M K N) K rfl rfl k
  | ⟨1, _⟩ => rfl

/-- The contraction's sum of a plain product at `(r, j)`, over the coordinate `k`. -/
theorem sum_plain {M K N : ℕ} (L : (⟨2, ![M, K]⟩ : Shape).Idx → EReal) (R : (⟨2, ![K, N]⟩ : Shape).Idx → EReal)
    (r : Fin M) (j : Fin N) :
    (∑ q : (DotDims.plain M K N).contr.Idx,
        L ((DotDims.plain M K N).lhsIdx (ix2 r j) q) * R ((DotDims.plain M K N).rhsIdx (ix2 r j) q))
      = ∑ k : Fin K, L (ix2 r k) * R (ix2 k j) := by
  rw [← Equiv.sum_comp (contrFin M K N).symm]
  exact Finset.sum_congr rfl fun k _ => by rw [lhsIdx_plain, rhsIdx_plain]

/-- At the ideal values the kernel's matrix product into the zero accumulator, read at `(r, j)`. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) :=
  (Ideal.matmul_constant_zero_apply _ prec lhs rhs (ix2 r j)).trans (sum_plain lhs rhs r j)

/-- At the ideal values the host's general product, read at `(r, j)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j)
      = ∑ k : Fin K, lhs (ix2 r k) * rhs (ix2 k j) :=
  (Ideal.dotGeneral_apply _ prec sched lhs rhs (ix2 r j)).trans (sum_plain lhs rhs r j)

end Cert.PlainDot

end
-- ==== Proof.Region0.lean ====
/-
  Region 0: the first matrix product, tile by tile.

  The grid has 50 points. At point `t` the body reads rows `2000·t … 2000·t + 1999` of the `[100000, 512]` left array
  and the whole `[512, 16]` right array, multiplies them (the roundings to a narrower format on the way into the product
  are the identity at the ideal values, and the accumulator starts at zero), and writes the `[2000, 16]` tile back to the
  same rows of the `[100000, 16]` output. Entry `(r, j)` of a tile is the sum over `k` of entry `(r, k)` of the row
  block times entry `(k, j)` of the right array; the row blocks are restrictions of the whole left array and the 50 tiles
  cover the output, so after the region the output array is the whole product
  `(r, j) ↦ ∑ k, x (r, k) · w (k, j)` of the two arrays as the region finds them.
-/
import proofs.«123740_j44676249813403_1_alg».proof.Proof.Gen.KernelIdeal.Frame
import proofs.«123740_j44676249813403_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- The product of a `[100000, 512]` array by a `[512, 16]` array over the extended reals. -/
def prodA (x : S100000x512.Idx → EReal) (w : S512x16.Idx → EReal) : S100000x16.Idx → EReal :=
  fun i => ∑ k : Fin 512, x (ix2 (i 0) k) * w (ix2 k (i 1))

theorem zero2 : (![0, 0] : Fin 2 → Nat) = fun _ => 0 := funext fun a => by fin_cases a <;> rfl

/-- The tile the body stores, at `(r, j)`: the sum over `k` of the row block's `(r, k)` times the right block's `(k, j)`. -/
theorem tile0_apply (x0 : Vec Ideal S2000x512 .f32) (x1 : Vec Ideal S512x16 .f32) (r : Fin 2000) (j : Fin 16) :
    k0_pay1 (F := Ideal) x0 x1 (ix2 r j) = ∑ k : Fin 512, x0 (ix2 r k) * x1 (ix2 k j) := by
  unfold k0_pay1
  exact Cert.PlainDot.matmul_plain_apply (M := 2000) (K := 512) (N := 16) none x0 x1 r j

variable (V : (c : Dev nD) → (b : Ref sig .tc) → Buf (Elt Ideal) ((c : Thread nD τ).loc b))

/-- The printed index maps over the 50 points: the left window and the output window move down the rows with the point,
    the right window stays, and nothing moves along the columns. -/
theorem maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed0 (c : Dev nD) (t : Fin cfg0.N) :
    (dat0 V c).flushed 2 t
      = ((cfg0.win 2).blk t).view.read (Elt Ideal) (prodA (V c main_arg0) (V c main_arg2)) := by
  show (cfg0.win 2).cut (grid0.coords t) ((dat0 V c).after 2 t) = _
  rw [after0_2]
  unfold out0_2
  rw [View.canon_unit_zero zero2]
  simp only [View.ld_unit_zero (S := S2000x512) zero2, View.ld_unit_zero (S := S512x16) zero2]
  obtain ⟨e00, e01, e10, e11, e20, e21⟩ := maps0 t
  funext j
  obtain ⟨p, q, rfl⟩ : ∃ (p : Fin 2000) (q : Fin 16), j = ix2 p q := ⟨j 0, j 1, eq_ix2 j⟩
  refine (tile0_apply (iblk0 V c 0 t) (iblk0 V c 1 t) p q).trans ?_
  show _ = prodA (V c main_arg0) (V c main_arg2) (((cfg0.win 2).blk t).view.emb (ix2 p q))
  unfold prodA
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 16 + 1 * q.val = win0_2.index t (1 : Fin 2) * 16 + 1 * q.val; omega
  have a0 : iblk0 V c 0 t (ix2 p k) = V c main_arg0 (ix2 ((((cfg0.win 2).blk t).view.emb (ix2 p q)) 0) k) :=
    congrArg (V c main_arg0) h0
  have a1 : iblk0 V c 1 t (ix2 k q) = V c main_arg2 (ix2 k ((((cfg0.win 2).blk t).view.emb (ix2 p q)) 1)) :=
    congrArg (V c main_arg2) h1
  rw [a0, a1]

/-- An index of the output array is in point `t`'s block iff each coordinate is in the block's range on its axis. -/
theorem mem_blk0 (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_call0_v30).slice (win0_2.rect t)).set ↔ _
  rw [View.set_slice_whole, Rect.mem_set_unit]
  exact Iff.rfl

/-- Row `r` of the output is in the block of point `r / 2000`. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 50 := N_0
  let t : Fin cfg0.N := ⟨(i 0).val / 2000, by rw [hN]; omega⟩
  obtain ⟨e00, e01, e10, e11, e20, e21⟩ := maps0 t
  have ht : t.val = (i 0).val / 2000 := rfl
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 16 ≤ (i 1).val ∧ (i 1).val < win0_2.index t (1 : Fin 2) * 16 + 16; omega

/-- After region 0 its output array is the whole product of the two arrays the region finds. -/
theorem array0 (c : Dev nD) :
    (dat0 V c).arrAt 2 cfg0.N = prodA (V c main_arg0) (V c main_arg2) :=
  (dat0 V c).arrAt_eq_of_cover 2 (prodA (V c main_arg0) (V c main_arg2)) (fun t _ => flushed0 V c t) cover0

end Cert.KernelIdeal.Whole

end
-- ==== Proof.Region1.lean ====
/-
  Region 1: add the bias row, take the maximum with zero, multiply by the second weight array, tile by tile.

  The grid has 10 points. At point `t` the body reads rows `10000·t … 10000·t + 9999` of the `[100000, 16]` array, the
  whole `[1, 16]` bias row and the whole `[16, 32]` weight array. Entry `(r, j)` of the `[10000, 32]` tile it stores is
  the sum over `k` of `max (a (r, k) + b (0, k)) 0` times `w (k, j)`: the bias row is spread over the rows, the roundings
  to a narrower format are the identity at the ideal values and the product's accumulator starts at zero. The ten tiles
  cover the `[100000, 32]` output, so after the region it is that function of the three arrays as the region finds them.
-/
import proofs.«123740_j44676249813403_1_alg».proof.Proof.Gen.KernelIdeal.Frame
import proofs.«123740_j44676249813403_1_alg».proof.Proof.LibPlainDot
import proofs.«123740_j44676249813403_1_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- Rows of a `[100000, 16]` array plus a bias row, cut below at zero, times a `[16, 32]` array. -/
def prodB (a : S100000x16.Idx → EReal) (b : S1x16.Idx → EReal) (w : S16x32.Idx → EReal) : S100000x32.Idx → EReal :=
  fun i => ∑ k : Fin 16, max (a (ix2 (i 0) k) + b (ix2 (0 : Fin 1) k)) 0 * w (ix2 k (i 1))

/-- The tile the body stores, at `(r, j)`. -/
theorem tile1_apply (x0 : Vec Ideal S10000x16 .f32) (x1 : Vec Ideal S1x16 .f32) (x2 : Vec Ideal S16x32 .f32)
    (r : Fin 10000) (j : Fin 32) :
    k1_pay1 (F := Ideal) x0 x1 x2 (ix2 r j)
      = ∑ k : Fin 16, max (x0 (ix2 r k) + x1 (ix2 (0 : Fin 1) k)) 0 * x2 (ix2 k j) := by
  unfold k1_pay1
  refine (Cert.PlainDot.matmul_plain_apply (M := 10000) (K := 16) (N := 32) none _ _ r j).trans ?_
  refine Finset.sum_congr rfl fun k _ => ?_
  refine congrArg₂ (· * ·) ?_ rfl
  show max (shapeCast _ x0 _ (ix2 r k) + broadcastTo _ (shapeCast _ x1 _) _ (ix2 r k)) (Ideal.ofBits .f32 0x00000000#32) = _
  rw [shapeCast_self, shapeCast_self, broadcastTo_1b_ab_apply, Ideal.ofBits_zero_f32]

variable (V : (c : Dev nD) → (b : Ref sig .tc) → Buf (Elt Ideal) ((c : Thread nD τ).loc b))

/-- The printed index maps over the 10 points: the first window and the output window move down the rows with the
    point, the bias row and the weight array stay. -/
theorem maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole function of the arrays the region finds. -/
theorem flushed1 (c : Dev nD) (t : Fin cfg1.N) :
    (dat1 V c).flushed 3 t
      = ((cfg1.win 3).blk t).view.read (Elt Ideal)
          (prodB (V c main_call0_v43) (V c main_call0_v44) (V c main_arg4)) := by
  show (cfg1.win 3).cut (grid1.coords t) ((dat1 V c).after 3 t) = _
  rw [after1_3]
  unfold out1_3
  rw [View.canon_unit_zero zero2]
  simp only [View.ld_unit_zero (S := S10000x16) zero2, View.ld_unit_zero (S := S1x16) zero2,
    View.ld_unit_zero (S := S16x32) zero2]
  obtain ⟨e00, e01, e10, e11, e20, e21, e30, e31⟩ := maps1 t
  funext j
  obtain ⟨p, q, rfl⟩ : ∃ (p : Fin 10000) (q : Fin 32), j = ix2 p q := ⟨j 0, j 1, eq_ix2 j⟩
  refine (tile1_apply (iblk1 V c 0 t) (iblk1 V c 1 t) (iblk1 V c 2 t) p q).trans ?_
  show _ = prodB (V c main_call0_v43) (V c main_call0_v44) (V c main_arg4) (((cfg1.win 3).blk t).view.emb (ix2 p q))
  unfold prodB
  refine Finset.sum_congr rfl fun k _ => ?_
  have h0 : ((cfg1.win 0).blk t).view.emb (ix2 p k) = ix2 ((((cfg1.win 3).blk t).view.emb (ix2 p q)) 0) k := by
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 16 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 16 + 1 * k.val = k.val; omega
  have h2 : ((cfg1.win 2).blk t).view.emb (ix2 k q) = ix2 k ((((cfg1.win 3).blk t).view.emb (ix2 p q)) 1) := by
    funext a; apply Fin.ext
    match a with
    | ⟨0, _⟩ => show win1_2.index t (0 : Fin 2) * 16 + 1 * k.val = k.val; omega
    | ⟨1, _⟩ => show win1_2.index t (1 : Fin 2) * 32 + 1 * q.val = win1_3.index t (1 : Fin 2) * 32 + 1 * q.val; omega
  have a0 : iblk1 V c 0 t (ix2 p k) = V c main_call0_v43 (ix2 ((((cfg1.win 3).blk t).view.emb (ix2 p q)) 0) k) :=
    congrArg (V c main_call0_v43) h0
  have a1 : iblk1 V c 1 t (ix2 (0 : Fin 1) k) = V c main_call0_v44 (ix2 (0 : Fin 1) k) :=
    congrArg (V c main_call0_v44) h1
  have a2 : iblk1 V c 2 t (ix2 k q) = V c main_arg4 (ix2 k ((((cfg1.win 3).blk t).view.emb (ix2 p q)) 1)) :=
    congrArg (V c main_arg4) h2
  rw [a0, a1, a2]

/-- An index of the output array is in point `t`'s block iff each coordinate is in the block's range on its axis. -/
theorem mem_blk1 (t : Fin cfg1.N) (i : S100000x32.Idx) :
    i ∈ ((cfg1.win 3).blk t).view.set ↔ ∀ a : Fin 2, win1_3.index t a * S10000x32.size a ≤ (i a).val
      ∧ (i a).val < win1_3.index t a * S10000x32.size a + S10000x32.size a := by
  show i ∈ ((View.whole main_call0_v45).slice (win1_3.rect t)).set ↔ _
  rw [View.set_slice_whole, Rect.mem_set_unit]
  exact Iff.rfl

/-- Row `r` of the output is in the block of point `r / 10000`. -/
theorem cover1 (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 10 := N_1
  let t : Fin cfg1.N := ⟨(i 0).val / 10000, by rw [hN]; omega⟩
  obtain ⟨e00, e01, e10, e11, e20, e21, e30, e31⟩ := maps1 t
  have ht : t.val = (i 0).val / 10000 := rfl
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 32 ≤ (i 1).val ∧ (i 1).val < win1_3.index t (1 : Fin 2) * 32 + 32; omega

/-- After region 1 its output array is that function of the three arrays the region finds. -/
theorem array1 (c : Dev nD) :
    (dat1 V c).arrAt 3 cfg1.N = prodB (V c main_call0_v43) (V c main_call0_v44) (V c main_arg4) :=
  (dat1 V c).arrAt_eq_of_cover 3 (prodB (V c main_call0_v43) (V c main_call0_v44) (V c main_arg4))
    (fun t _ => flushed1 V c t) cover1

end Cert.KernelIdeal.Whole

end
-- ==== Proof.LibRowOps.lean ====
/-
  Row-wise operations of a two-axis vector, read at an index (program-independent; imports only the library).

  A reduction along the rows of an `[a, b]` vector that keeps the reduced axis as a unit axis passes through three
  operations: the reduction itself into `[a]`, a shape cast of that into the column `[a, 1]`, and a broadcast of the
  column back to `[a, b]`. Read at `(i, j)`, the cast column at `(i, 0)` is entry `i` of the reduced vector, and the
  broadcast column at `(i, j)` is the column's entry `(i, 0)`: the value depends on the row alone. At the ideal values
  the reduction at row `i` is the sum over `k` of the entries `(i, k)`, or the fold of `max` over them from the
  accumulator's value, in any order.
-/
import Idealize.ShloMosaic.Lib.ValueIdx
import Idealize.ShloMosaic.Lib.Pipeline.Value
import Idealize.ShloMosaic.PureOps.Ideal.Laws

noncomputable section

namespace Cert.RowOps

open Idealize.ShloMosaic Idealize.ShloMosaic.ValueIdx

variable {α : Type}

/-- An `[a]` vector cast to the column `[a, 1]` reads, at `(i, z)`, the operand's entry `i`: both sit at row-major
    position `i`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column's entry `(i, 0)`: the row is kept and
    the unit axis is read at its only coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

/-- The index over row `i` with coordinate `k` put back on the reduced axis is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  fin_cases c <;> rfl

/-- At the ideal values a sum along the rows of an `[a, b]` vector is, at row `i`, the sum of that row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- At the ideal values a maximum along the rows of an `[a, b]` vector is, at row `i`, the fold of `max` over that
    row's entries from the accumulator's value, in any order. -/
theorem multiReduction_maximumf_row {a b : ℕ} {φ : FTy} (X : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  rw [hf]
  rfl

end Cert.RowOps

end
-- ==== Proof.Region2.lean ====
/-
  Region 2: add the bias row, then the logarithm of the softmax of each row, tile by tile.

  The grid has 10 points. At point `t` the body reads rows `10000·t … 10000·t + 9999` of the `[100000, 32]` array and
  the whole `[1, 32]` bias row. With `h (r, j) = a (r, j) + b (0, j)`, `M r` the fold of `max` over row `r` of `h` from −∞,
  and `z (r, j) = h (r, j) − M r`, entry `(r, j)` of the tile it stores is `z (r, j) − log (∑ k, exp (z (r, k)))`: the row's
  maximum and the row's sum are kept as a column and spread back over the row. Each entry depends on its own row only,
  the rows of a tile are rows of the whole array and the ten tiles cover the output, so after the region the output is
  that function of the two arrays as the region finds them.
-/
import proofs.«123740_j44676249813403_1_alg».proof.Proof.Gen.KernelIdeal.Frame
import proofs.«123740_j44676249813403_1_alg».proof.Proof.LibRowOps
import proofs.«123740_j44676249813403_1_alg».proof.Proof.Region0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- A row of `n` extended reals minus its maximum (the fold of `max` from −∞), minus the logarithm of the sum of the
    exponentials of those differences: the logarithm of the row's softmax. -/
def logSoftmaxRow {n : ℕ} (h : Fin n → EReal) (j : Fin n) : EReal :=
  (h j - (Finset.univ : Finset (Fin n)).fold max (Ideal.ofBits .f32 0xFF800000#32) h)
    - Ideal.log (∑ k : Fin n, Ideal.exp (h k - (Finset.univ : Finset (Fin n)).fold max (Ideal.ofBits .f32 0xFF800000#32) h))

/-- Rows of a `[100000, 32]` array plus a bias row, then the logarithm of each row's softmax. -/
def lsmC (a : S100000x32.Idx → EReal) (b : S1x32.Idx → EReal) : S100000x32.Idx → EReal :=
  fun i => logSoftmaxRow (fun k : Fin 32 => a (ix2 (i 0) k) + b (ix2 (0 : Fin 1) k)) (i 1)

/-- The whole function at `(r, j)`: the logarithm of the softmax of row `r` of the array plus the bias row. -/
theorem lsmC_apply (a : S100000x32.Idx → EReal) (b : S1x32.Idx → EReal) (r : Fin 100000) (j : Fin 32) :
    lsmC a b (ix2 r j) = logSoftmaxRow (fun k : Fin 32 => a (ix2 r k) + b (ix2 (0 : Fin 1) k)) j := rfl

theorem exp_apply {s : Shape} (a : FVec Ideal s .f32) (i : s.Idx) : exp a i = Ideal.exp (a i) := rfl
theorem log_apply {s : Shape} (a : FVec Ideal s .f32) (i : s.Idx) : log a i = Ideal.log (a i) := rfl

/-- The row-wise steps of the body on any `[10000, 32]` vector `X`: subtract each row's maximum (reduced along the
    row, kept as a column, spread back), then subtract the logarithm of the row's sum of exponentials (likewise). -/
theorem rowSteps_apply (X : FVec Ideal S10000x32 .f32) (r : Fin 10000) (j : Fin 32) :
    subf (F := Ideal)
      (subf (F := Ideal) X (broadcastTo S10000x32 (shapeCast S10000x1 (multiReduction (F := Ideal) .maximumf [1] S10000 X 0xFF800000#32 reduces_S10000x32_S10000 (.inl rfl) rfl) shapeCasts_S10000_S10000x1) broadcasts_S10000x1_S10000x32))
      (broadcastTo S10000x32
        (log (F := Ideal) (shapeCast S10000x1
          (multiReduction (F := Ideal) .add [1] S10000 (exp (F := Ideal) (subf (F := Ideal) X (broadcastTo S10000x32 (shapeCast S10000x1 (multiReduction (F := Ideal) .maximumf [1] S10000 X 0xFF800000#32 reduces_S10000x32_S10000 (.inl rfl) rfl) shapeCasts_S10000_S10000x1) broadcasts_S10000x1_S10000x32)))
            0x00000000#32 reduces_S10000x32_S10000 (.inl rfl) rfl) shapeCasts_S10000_S10000x1))
        broadcasts_S10000x1_S10000x32)
      (ix2 r j)
    = logSoftmaxRow (fun k : Fin 32 => X (ix2 r k)) j := by
  -- the row's maximum, spread back, at any column
  have hM : ∀ k : Fin 32, (broadcastTo S10000x32 (shapeCast S10000x1 (multiReduction (F := Ideal) .maximumf [1] S10000 X 0xFF800000#32 reduces_S10000x32_S10000 (.inl rfl) rfl) shapeCasts_S10000_S10000x1) broadcasts_S10000x1_S10000x32) (ix2 r k) = ((Finset.univ : Finset (Fin 32)).fold max (Ideal.ofBits .f32 0xFF800000#32) (fun k => X (ix2 r k))) := fun k =>
    (Cert.RowOps.broadcastTo_a1_ab_apply _ _ r k).trans
      ((Cert.RowOps.shapeCast_a_a1_apply _ _ r (0 : Fin 1)).trans
        (Cert.RowOps.multiReduction_maximumf_row X 0xFF800000#32 reduces_S10000x32_S10000 (.inl rfl) rfl r))
  -- the exponential of the shifted entry
  have hE : ∀ k : Fin 32, (exp (F := Ideal) (subf (F := Ideal) X (broadcastTo S10000x32 (shapeCast S10000x1 (multiReduction (F := Ideal) .maximumf [1] S10000 X 0xFF800000#32 reduces_S10000x32_S10000 (.inl rfl) rfl) shapeCasts_S10000_S10000x1) broadcasts_S10000x1_S10000x32))) (ix2 r k) = Ideal.exp (X (ix2 r k) - ((Finset.univ : Finset (Fin 32)).fold max (Ideal.ofBits .f32 0xFF800000#32) (fun k => X (ix2 r k)))) := fun k =>
    congrArg Ideal.exp ((subf_apply X (broadcastTo S10000x32 (shapeCast S10000x1 (multiReduction (F := Ideal) .maximumf [1] S10000 X 0xFF800000#32 reduces_S10000x32_S10000 (.inl rfl) rfl) shapeCasts_S10000_S10000x1) broadcasts_S10000x1_S10000x32) (ix2 r k)).trans (congrArg (fun b : EReal => X (ix2 r k) - b) (hM k)))
  -- the logarithm of the row's sum, spread back
  have hL : (broadcastTo S10000x32
        (log (F := Ideal) (shapeCast S10000x1
          (multiReduction (F := Ideal) .add [1] S10000 (exp (F := Ideal) (subf (F := Ideal) X (broadcastTo S10000x32 (shapeCast S10000x1 (multiReduction (F := Ideal) .maximumf [1] S10000 X 0xFF800000#32 reduces_S10000x32_S10000 (.inl rfl) rfl) shapeCasts_S10000_S10000x1) broadcasts_S10000x1_S10000x32)))
            0x00000000#32 reduces_S10000x32_S10000 (.inl rfl) rfl) shapeCasts_S10000_S10000x1))
        broadcasts_S10000x1_S10000x32) (ix2 r j) = Ideal.log (∑ k : Fin 32, Ideal.exp (X (ix2 r k) - ((Finset.univ : Finset (Fin 32)).fold max (Ideal.ofBits .f32 0xFF800000#32) (fun k => X (ix2 r k))))) :=
    (Cert.RowOps.broadcastTo_a1_ab_apply _ _ r j).trans (congrArg Ideal.log
      (((Cert.RowOps.shapeCast_a_a1_apply _ _ r (0 : Fin 1)).trans
          (Cert.RowOps.multiReduction_add_row (exp (F := Ideal) (subf (F := Ideal) X (broadcastTo S10000x32 (shapeCast S10000x1 (multiReduction (F := Ideal) .maximumf [1] S10000 X 0xFF800000#32 reduces_S10000x32_S10000 (.inl rfl) rfl) shapeCasts_S10000_S10000x1) broadcasts_S10000x1_S10000x32))) 0x00000000#32 reduces_S10000x32_S10000 (.inl rfl) rfl r)).trans
        (Finset.sum_congr rfl fun k _ => hE k)))
  exact (subf_apply _ (broadcastTo S10000x32
        (log (F := Ideal) (shapeCast S10000x1
          (multiReduction (F := Ideal) .add [1] S10000 (exp (F := Ideal) (subf (F := Ideal) X (broadcastTo S10000x32 (shapeCast S10000x1 (multiReduction (F := Ideal) .maximumf [1] S10000 X 0xFF800000#32 reduces_S10000x32_S10000 (.inl rfl) rfl) shapeCasts_S10000_S10000x1) broadcasts_S10000x1_S10000x32)))
            0x00000000#32 reduces_S10000x32_S10000 (.inl rfl) rfl) shapeCasts_S10000_S10000x1))
        broadcasts_S10000x1_S10000x32) (ix2 r j)).trans
    ((congrArg (fun a : EReal => a - (broadcastTo S10000x32
        (log (F := Ideal) (shapeCast S10000x1
          (multiReduction (F := Ideal) .add [1] S10000 (exp (F := Ideal) (subf (F := Ideal) X (broadcastTo S10000x32 (shapeCast S10000x1 (multiReduction (F := Ideal) .maximumf [1] S10000 X 0xFF800000#32 reduces_S10000x32_S10000 (.inl rfl) rfl) shapeCasts_S10000_S10000x1) broadcasts_S10000x1_S10000x32)))
            0x00000000#32 reduces_S10000x32_S10000 (.inl rfl) rfl) shapeCasts_S10000_S10000x1))
        broadcasts_S10000x1_S10000x32) (ix2 r j))
        ((subf_apply X (broadcastTo S10000x32 (shapeCast S10000x1 (multiReduction (F := Ideal) .maximumf [1] S10000 X 0xFF800000#32 reduces_S10000x32_S10000 (.inl rfl) rfl) shapeCasts_S10000_S10000x1) broadcasts_S10000x1_S10000x32) (ix2 r j)).trans (congrArg (fun b : EReal => X (ix2 r j) - b) (hM j)))).trans
      (congrArg (fun b : EReal => (X (ix2 r j) - ((Finset.univ : Finset (Fin 32)).fold max (Ideal.ofBits .f32 0xFF800000#32) (fun k => X (ix2 r k)))) - b) hL))

/-- The tile the body stores, at `(r, j)`. -/
theorem tile2_apply (x0 : Vec Ideal S10000x32 .f32) (x1 : Vec Ideal S1x32 .f32) (r : Fin 10000) (j : Fin 32) :
    k2_pay1 (F := Ideal) x0 x1 (ix2 r j)
      = logSoftmaxRow (fun k : Fin 32 => x0 (ix2 r k) + x1 (ix2 (0 : Fin 1) k)) j := by
  unfold k2_pay1
  refine (rowSteps_apply (addf (F := Ideal) (shapeCast S10000x32 x0 shapeCasts_S10000x32_S10000x32)
    (broadcastTo S10000x32 (shapeCast S1x32 x1 shapeCasts_S1x32_S1x32) broadcasts_S1x32_S10000x32)) r j).trans ?_
  refine congrArg (fun h => logSoftmaxRow h j) (funext fun k => ?_)
  rw [addf_apply, shapeCast_self, shapeCast_self, broadcastTo_1b_ab_apply]

variable (V : (c : Dev nD) → (b : Ref sig .tc) → Buf (Elt Ideal) ((c : Thread nD τ).loc b))

/-- The printed index maps over the 10 points: the first window and the output window move down the rows with the
    point, the bias row stays. -/
theorem maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole function of the arrays the region finds. -/
theorem flushed2 (c : Dev nD) (t : Fin cfg2.N) :
    (dat2 V c).flushed 2 t
      = ((cfg2.win 2).blk t).view.read (Elt Ideal) (lsmC (V c main_call0_v58) (V c main_call0_v59)) := by
  show (cfg2.win 2).cut (grid2.coords t) ((dat2 V c).after 2 t) = _
  rw [after2_2]
  unfold out2_2
  rw [View.canon_unit_zero zero2]
  simp only [View.ld_unit_zero (S := S10000x32) zero2, View.ld_unit_zero (S := S1x32) zero2]
  obtain ⟨e00, e01, e10, e11, e20, e21⟩ := maps2 t
  funext j
  obtain ⟨p, q, rfl⟩ : ∃ (p : Fin 10000) (q : Fin 32), j = ix2 p q := ⟨j 0, j 1, eq_ix2 j⟩
  refine (tile2_apply (iblk2 V c 0 t) (iblk2 V c 1 t) p q).trans ?_
  show _ = lsmC (V c main_call0_v58) (V c main_call0_v59) (((cfg2.win 2).blk t).view.emb (ix2 p q))
  unfold lsmC
  have h0 : ∀ k : Fin 32, ((cfg2.win 0).blk t).view.emb (ix2 p k) = ix2 ((((cfg2.win 2).blk t).view.emb (ix2 p q)) 0) k := fun k => by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 32 + 1 * k.val = k.val; omega
  have h1 : ∀ k : Fin 32, ((cfg2.win 1).blk t).view.emb (ix2 (0 : Fin 1) k) = ix2 (0 : Fin 1) k := fun k => by
    funext a; apply Fin.ext
    match a with
    | ⟨0, _⟩ => show win2_1.index t (0 : Fin 2) * 1 + 1 * 0 = 0; omega
    | ⟨1, _⟩ => show win2_1.index t (1 : Fin 2) * 32 + 1 * k.val = k.val; omega
  have hq : (((cfg2.win 2).blk t).view.emb (ix2 p q)) 1 = q := by
    apply Fin.ext
    show win2_2.index t (1 : Fin 2) * 32 + 1 * q.val = q.val; omega
  have a0 : ∀ k : Fin 32, iblk2 V c 0 t (ix2 p k)
      = V c main_call0_v58 (ix2 ((((cfg2.win 2).blk t).view.emb (ix2 p q)) 0) k) := fun k =>
    congrArg (V c main_call0_v58) (h0 k)
  have a1 : ∀ k : Fin 32, iblk2 V c 1 t (ix2 (0 : Fin 1) k) = V c main_call0_v59 (ix2 (0 : Fin 1) k) := fun k =>
    congrArg (V c main_call0_v59) (h1 k)
  simp only [a0, a1]
  rw [hq]

/-- An index of the output array is in point `t`'s block iff each coordinate is in the block's range on its axis. -/
theorem mem_blk2 (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v0).slice (win2_2.rect t)).set ↔ _
  rw [View.set_slice_whole, Rect.mem_set_unit]
  exact Iff.rfl

/-- Row `r` of the output is in the block of point `r / 10000`. -/
theorem cover2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := N_2
  let t : Fin cfg2.N := ⟨(i 0).val / 10000, by rw [hN]; omega⟩
  obtain ⟨e00, e01, e10, e11, e20, e21⟩ := maps2 t
  have ht : t.val = (i 0).val / 10000 := rfl
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 32 ≤ (i 1).val ∧ (i 1).val < win2_2.index t (1 : Fin 2) * 32 + 32; omega

/-- After region 2 its output array is that function of the two arrays the region finds. -/
theorem array2 (c : Dev nD) :
    (dat2 V c).arrAt 2 cfg2.N = lsmC (V c main_call0_v58) (V c main_call0_v59) :=
  (dat2 V c).arrAt_eq_of_cover 2 (lsmC (V c main_call0_v58) (V c main_call0_v59)) (fun t _ => flushed2 V c t) cover2

end Cert.KernelIdeal.Whole

end
-- ==== Proof.HostTerms.lean ====
/-
  The host operations between the regions, as functions of what they read.

  From the `[2, 3200000]` edge array the program forms the source list and the target list, each followed by every node
  once (a self loop per node); the degree of a node is the number of times it occurs in the target list; the weight of
  an edge is the product of the inverse square roots of the degrees of its two ends (zero where a degree is not
  positive). An aggregation reads a feature row at every edge's source, scales it by the edge's weight and adds it into
  the row of the edge's target. Node indices are taken with negative values wrapped around once, as the host spells an
  indexing. These are the program's own operations, named; nothing here opens them.
-/
import proofs.«123740_j44676249813403_1_alg».proof.Proof.Gen.KernelIdeal.Frame

noncomputable section

namespace Cert.KernelIdeal.Whole

open Cert.KernelIdeal Cert.KernelIdeal.Gen Idealize.ShloMosaic Idealize.ShloMosaic.TcCoe Idealize.SL.Sem

variable {F : FTy → Type} [FloatOps F]

/-- Row 0 of the edge array (the sources), then every node once. -/
def srcNodes (e : IVec S2x3200000 32) : IVec S3300000 32 :=
  concatenate S3300000 0
    [⟨S3200000, shapeCast _ (extractStridedSlice S1x3200000 ![0, 0] e slices_S2x3200000_S1x3200000_0_0) shapeCasts_S1x3200000_S3200000⟩,
     ⟨S100000, iotaInDim S100000 32 0⟩] concatenates_S3200000_S100000_S3300000_d0

/-- Row 1 of the edge array (the targets), then every node once. -/
def dstNodes (e : IVec S2x3200000 32) : IVec S3300000 32 :=
  concatenate S3300000 0
    [⟨S3200000, shapeCast _ (extractStridedSlice S1x3200000 ![1, 0] e slices_S2x3200000_S1x3200000_1_0) shapeCasts_S1x3200000_S3200000⟩,
     ⟨S100000, iotaInDim S100000 32 0⟩] concatenates_S3200000_S100000_S3300000_d0

/-- A list of node indices with each negative one moved up by the number of nodes. -/
def wrapIdx (i : IVec S3300000 32) : IVec S3300000 32 :=
  select (cmpi .slt i (broadcastInDim S3300000 ![] bcast_S_S3300000 (constantI S_ 32 0#32)))
    (addi i (broadcastInDim S3300000 ![] bcast_S_S3300000 (constantI S_ 32 100000#32))) i

/-- The number of times each node occurs in a list, as a float: ones added into zeros at the list's entries. -/
def degree (dst : IVec S3300000 32) : FVec F S100000 .f32 :=
  Host.scatterAdd scatter_S100000_S3300000x1_S3300000_n_0_0_1
    (broadcastInDim S100000 ![] bcast_S_S100000 (constant S_ .f32 0x00000000#32))
    (broadcastInDim S3300000x1 ![0] bcast_S3300000_S3300000x1_0 dst)
    (broadcastInDim S3300000 ![] bcast_S_S3300000 (constant S_ .f32 0x3F800000#32))

/-- The inverse square root of each node's degree, zero where the degree is not positive. -/
def invSqrtDegree (dst : IVec S3300000 32) : FVec F S100000 .f32 :=
  select (cmpf (F := F) .ogt (degree dst) (broadcastInDim S100000 ![] bcast_S_S100000 (constant S_ .f32 0x00000000#32)))
    (Host.rsqrt (degree dst))
    (broadcastInDim S100000 ![] bcast_S_S100000 (id (constant S_ .f32 0x00000000#32)))

/-- The weight of each edge: the product of the inverse square roots of the degrees of its source and of its target. -/
def edgeWeight (src dst : IVec S3300000 32) : FVec F S3300000 .f32 :=
  mulf
    (Host.gather gather_S100000_S3300000x1_S3300000_n_0_n_n_0_1_1 (invSqrtDegree (F := F) dst)
      (broadcastInDim S3300000x1 ![0] bcast_S3300000_S3300000x1_0 (wrapIdx src)))
    (Host.gather gather_S100000_S3300000x1_S3300000_n_0_n_n_0_1_1 (invSqrtDegree (F := F) dst)
      (broadcastInDim S3300000x1 ![0] bcast_S3300000_S3300000x1_0 (wrapIdx dst)))

/-- The aggregation of 16-wide rows: each edge's source row times the edge's weight, added into the target's row. -/
def aggregate16 (h : FVec F S100000x16 .f32) (src dst : IVec S3300000 32) (wgt : FVec F S3300000 .f32) :
    FVec F S100000x16 .f32 :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 dst)
    (mulf
      (Host.gather gather_S100000x16_S3300000x1_S3300000x16_1_0_n_n_0_1_116 h
        (broadcastInDim S3300000x1 ![0] bcast_S3300000_S3300000x1_0 (wrapIdx src)))
      (broadcastInDim S3300000x16 ![0, 1] bcast_S3300000x1_S3300000x16_0_1
        (broadcastInDim S3300000x1 ![0] bcast_S3300000_S3300000x1_0 wgt)))

/-- The aggregation of 32-wide rows. -/
def aggregate32 (h : FVec F S100000x32 .f32) (src dst : IVec S3300000 32) (wgt : FVec F S3300000 .f32) :
    FVec F S100000x32 .f32 :=
  Host.scatterAdd scatter_S100000x32_S3300000x1_S3300000x32_1_0_0_1
    (broadcastInDim S100000x32 ![] bcast_S_S100000x32 (constant S_ .f32 0x00000000#32))
    (broadcastInDim S3300000x1 ![0] bcast_S3300000_S3300000x1_0 dst)
    (mulf
      (Host.gather gather_S100000x32_S3300000x1_S3300000x32_1_0_n_n_0_1_132 h
        (broadcastInDim S3300000x1 ![0] bcast_S3300000_S3300000x1_0 (wrapIdx src)))
      (broadcastInDim S3300000x32 ![0, 1] bcast_S3300000x1_S3300000x32_0_1
        (broadcastInDim S3300000x1 ![0] bcast_S3300000_S3300000x1_0 wgt)))

end Cert.KernelIdeal.Whole

end
-- ==== Proof.Whole.lean ====
/-
  The whole computation as one function of the six arguments.

  With `S` and `D` the source and target lists (each followed by every node once) and `ω` the edge weights formed from
  them, the result is the logarithm of each row's softmax of `A₂ + b₂`, where `A₂` aggregates `max (A₁ + b₁) 0 · W₂`
  along `(S, D, ω)` and `A₁` aggregates `x · W₁` along `(S, D, ω)`. Both programs are proved to compute this function.
-/
import proofs.«123740_j44676249813403_1_alg».proof.Proof.Region0
import proofs.«123740_j44676249813403_1_alg».proof.Proof.Region1
import proofs.«123740_j44676249813403_1_alg».proof.Proof.Region2
import proofs.«123740_j44676249813403_1_alg».proof.Proof.HostTerms

noncomputable section

namespace Cert.KernelIdeal.Whole

open Cert.KernelIdeal Cert.KernelIdeal.Gen Idealize.ShloMosaic

/-- The kernel program's result as one function of the six arguments. -/
def kernelValue (x : S100000x512.Idx → EReal) (e : IVec S2x3200000 32) (w1 : S512x16.Idx → EReal)
    (b1 : S16.Idx → EReal) (w2 : S16x32.Idx → EReal) (b2 : S32.Idx → EReal) : S100000x32.Idx → EReal :=
  lsmC
    (aggregate32 (F := Ideal)
      (prodB (aggregate16 (F := Ideal) (prodA x w1) (srcNodes e) (dstNodes e) (edgeWeight (F := Ideal) (srcNodes e) (dstNodes e)))
        (shapeCast S1x16 b1 shapeCasts_S16_S1x16) w2)
      (srcNodes e) (dstNodes e) (edgeWeight (F := Ideal) (srcNodes e) (dstNodes e)))
    (shapeCast S1x32 b2 shapeCasts_S32_S1x32)

end Cert.KernelIdeal.Whole

end
-- ==== Proof.LibStageRead.lean ====
/-
  Reading the fold of a straight line of host operations (program-independent; imports only the library).

  The contents of a program's buffers after a list of host operations is the fold of the operations' results over the
  contents before it. Two facts serve to read such a fold at one buffer. A concatenation of two operands can be written with the operands
  as plain arguments, so that a rewriting pass reaches them (as an entry of a list of shape-and-contents pairs it cannot).
  And one rewriting pass over the fold of a literal list gives, at any buffer, the composed operations of what the
  list finds: each operation's result at its own buffer is its function's value and at any other buffer what was
  there; the transports of contents between a buffer's own type and the value's type, which are along equations that
  hold by computation, are dropped.
-/
import Idealize.ShloMosaic.Lib.StableHlo.Run

noncomputable section

namespace Cert.StageRead

open Idealize.ShloMosaic Idealize.ShloMosaic.StableHlo

/-- A concatenation of two operands with the operands as plain arguments. -/
def concatPair {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A concatenation of a two-entry list is the pair form of its two entries. -/
theorem concatenate_pair {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = concatPair t a s₁ s₂ h x₁ x₂ := rfl

/-- One rewriting pass over the fold of a literal list of operations, read at a buffer. -/
macro "stage_results" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_pair,
      cast_eq, cast_cast, eq_mpr_eq_cast, eq_mp_eq_cast, eqRec_eq_cast]))

end Cert.StageRead

end
-- ==== Proof.Walk.lean ====
/-
  The kernel program's buffers, followed from the launch memory to the result.

  Stretch 0 forms the two node lists and the edge weights from the edge array. Region 0 leaves the first product.
  Stretch 1 aggregates it and casts the first bias to a row. Region 1 adds that row, cuts below at zero and multiplies
  by the second weight array. Stretch 2 aggregates again and casts the second bias to a row. Region 2 adds it and takes
  the logarithm of each row's softmax. A buffer that a stretch does not write and that is no array of a region keeps
  its contents across it; so the node lists and the edge weights formed in stretch 0 are what stretches 1 and 2 read,
  and each argument is read as launched. Composed, the result's buffer holds one function of the six arguments.
-/
import proofs.«123740_j44676249813403_1_alg».proof.Proof.Region0
import proofs.«123740_j44676249813403_1_alg».proof.Proof.Region1
import proofs.«123740_j44676249813403_1_alg».proof.Proof.Region2
import proofs.«123740_j44676249813403_1_alg».proof.Proof.HostTerms
import proofs.«123740_j44676249813403_1_alg».proof.Proof.Whole
import proofs.«123740_j44676249813403_1_alg».proof.Proof.LibStageRead
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## Stretch 0: the node lists and the edge weights, and the arguments it leaves alone -/

/-- After stretch 0 the source list's buffer holds the sources followed by every node. -/
theorem src1 : W1 m ρ c (Proc.devRef .tc main_call0_v5) = srcNodes (m ((c : Thread nD τ).loc main_arg1)) := by
  show StableHlo.after hostOps0 (W0 m ρ c) (Proc.devRef .tc main_call0_v5) = _
  dsimp only [hostOps0]
  stage_results <;> rfl
/-- After stretch 0 the target list's buffer holds the targets followed by every node. -/
theorem dst1 : W1 m ρ c (Proc.devRef .tc main_call0_v6) = dstNodes (m ((c : Thread nD τ).loc main_arg1)) := by
  show StableHlo.after hostOps0 (W0 m ρ c) (Proc.devRef .tc main_call0_v6) = _
  dsimp only [hostOps0]
  stage_results <;> rfl
set_option maxHeartbeats 4000000 in
/-- After stretch 0 the weights' buffer holds the edge weights of those two lists. -/
theorem wgt1 : W1 m ρ c (Proc.devRef .tc main_call0_v29)
    = edgeWeight (F := Ideal) (srcNodes (m ((c : Thread nD τ).loc main_arg1))) (dstNodes (m ((c : Thread nD τ).loc main_arg1))) := by
  show StableHlo.after hostOps0 (W0 m ρ c) (Proc.devRef .tc main_call0_v29) = _
  dsimp only [hostOps0]
  stage_results <;> rfl
theorem arg0_1 : W1 m ρ c (Proc.devRef .tc main_arg0) = W0 m ρ c (Proc.devRef .tc main_arg0) := by
  show StableHlo.after hostOps0 (W0 m ρ c) (Proc.devRef .tc main_arg0) = _
  dsimp only [hostOps0]
  stage_results <;> rfl
theorem arg0_1' : W1 m ρ c (Proc.devRef .tc main_arg0) = (m ((c : Thread nD τ).loc main_arg0)) := (arg0_1 m ρ c).trans rfl
theorem arg2_1 : W1 m ρ c (Proc.devRef .tc main_arg2) = W0 m ρ c (Proc.devRef .tc main_arg2) := by
  show StableHlo.after hostOps0 (W0 m ρ c) (Proc.devRef .tc main_arg2) = _
  dsimp only [hostOps0]
  stage_results <;> rfl
theorem arg2_1' : W1 m ρ c (Proc.devRef .tc main_arg2) = (m ((c : Thread nD τ).loc main_arg2)) := (arg2_1 m ρ c).trans rfl
theorem arg3_1 : W1 m ρ c (Proc.devRef .tc main_arg3) = W0 m ρ c (Proc.devRef .tc main_arg3) := by
  show StableHlo.after hostOps0 (W0 m ρ c) (Proc.devRef .tc main_arg3) = _
  dsimp only [hostOps0]
  stage_results <;> rfl
theorem arg3_1' : W1 m ρ c (Proc.devRef .tc main_arg3) = (m ((c : Thread nD τ).loc main_arg3)) := (arg3_1 m ρ c).trans rfl
theorem arg4_1 : W1 m ρ c (Proc.devRef .tc main_arg4) = W0 m ρ c (Proc.devRef .tc main_arg4) := by
  show StableHlo.after hostOps0 (W0 m ρ c) (Proc.devRef .tc main_arg4) = _
  dsimp only [hostOps0]
  stage_results <;> rfl
theorem arg4_1' : W1 m ρ c (Proc.devRef .tc main_arg4) = (m ((c : Thread nD τ).loc main_arg4)) := (arg4_1 m ρ c).trans rfl
theorem arg5_1 : W1 m ρ c (Proc.devRef .tc main_arg5) = W0 m ρ c (Proc.devRef .tc main_arg5) := by
  show StableHlo.after hostOps0 (W0 m ρ c) (Proc.devRef .tc main_arg5) = _
  dsimp only [hostOps0]
  stage_results <;> rfl
theorem arg5_1' : W1 m ρ c (Proc.devRef .tc main_arg5) = (m ((c : Thread nD τ).loc main_arg5)) := (arg5_1 m ρ c).trans rfl

/-! ## Region 0 -/

/-- After region 0 its output holds the product of the first two float arguments. -/
theorem prod2 : W2 m ρ c (Proc.devRef .tc main_call0_v30) = prodA (m ((c : Thread nD τ).loc main_arg0)) (m ((c : Thread nD τ).loc main_arg2)) := by
  refine (W2_arr m ρ c 2).trans ((array0 (V1 m ρ) c).trans ?_)
  show prodA (W1 m ρ c (Proc.devRef .tc main_arg0)) (W1 m ρ c (Proc.devRef .tc main_arg2)) = _
  rw [arg0_1', arg2_1']
theorem src_2s : W2 m ρ c (Proc.devRef .tc main_call0_v5) = W1 m ρ c (Proc.devRef .tc main_call0_v5) :=
  W2_of_ne m ρ c main_call0_v5 (by decide)
theorem dst_2s : W2 m ρ c (Proc.devRef .tc main_call0_v6) = W1 m ρ c (Proc.devRef .tc main_call0_v6) :=
  W2_of_ne m ρ c main_call0_v6 (by decide)
theorem wgt_2s : W2 m ρ c (Proc.devRef .tc main_call0_v29) = W1 m ρ c (Proc.devRef .tc main_call0_v29) :=
  W2_of_ne m ρ c main_call0_v29 (by decide)
theorem arg3_2s : W2 m ρ c (Proc.devRef .tc main_arg3) = W1 m ρ c (Proc.devRef .tc main_arg3) :=
  W2_of_ne m ρ c main_arg3 (by decide)
theorem arg4_2s : W2 m ρ c (Proc.devRef .tc main_arg4) = W1 m ρ c (Proc.devRef .tc main_arg4) :=
  W2_of_ne m ρ c main_arg4 (by decide)
theorem arg5_2s : W2 m ρ c (Proc.devRef .tc main_arg5) = W1 m ρ c (Proc.devRef .tc main_arg5) :=
  W2_of_ne m ρ c main_arg5 (by decide)

/-! ## Stretch 1 -/

set_option maxHeartbeats 4000000 in
/-- After stretch 1 the aggregate's buffer holds the 16-wide aggregation of what stretch 1 finds. -/
theorem agg3 : W3 m ρ c (Proc.devRef .tc main_call0_v43)
    = aggregate16 (F := Ideal) (W2 m ρ c (Proc.devRef .tc main_call0_v30)) (W2 m ρ c (Proc.devRef .tc main_call0_v5))
        (W2 m ρ c (Proc.devRef .tc main_call0_v6)) (W2 m ρ c (Proc.devRef .tc main_call0_v29)) := by
  show StableHlo.after hostOps1 (W2 m ρ c) (Proc.devRef .tc main_call0_v43) = _
  dsimp only [hostOps1]
  stage_results <;> rfl
/-- After stretch 1 the bias row's buffer holds the first bias cast to a row. -/
theorem bias3 : W3 m ρ c (Proc.devRef .tc main_call0_v44)
    = shapeCast S1x16 (W2 m ρ c (Proc.devRef .tc main_arg3)) shapeCasts_S16_S1x16 := by
  show StableHlo.after hostOps1 (W2 m ρ c) (Proc.devRef .tc main_call0_v44) = _
  dsimp only [hostOps1]
  stage_results <;> rfl
theorem src_3s : W3 m ρ c (Proc.devRef .tc main_call0_v5) = W2 m ρ c (Proc.devRef .tc main_call0_v5) := by
  show StableHlo.after hostOps1 (W2 m ρ c) (Proc.devRef .tc main_call0_v5) = _
  dsimp only [hostOps1]
  stage_results <;> rfl
theorem dst_3s : W3 m ρ c (Proc.devRef .tc main_call0_v6) = W2 m ρ c (Proc.devRef .tc main_call0_v6) := by
  show StableHlo.after hostOps1 (W2 m ρ c) (Proc.devRef .tc main_call0_v6) = _
  dsimp only [hostOps1]
  stage_results <;> rfl
theorem wgt_3s : W3 m ρ c (Proc.devRef .tc main_call0_v29) = W2 m ρ c (Proc.devRef .tc main_call0_v29) := by
  show StableHlo.after hostOps1 (W2 m ρ c) (Proc.devRef .tc main_call0_v29) = _
  dsimp only [hostOps1]
  stage_results <;> rfl
theorem arg4_3s : W3 m ρ c (Proc.devRef .tc main_arg4) = W2 m ρ c (Proc.devRef .tc main_arg4) := by
  show StableHlo.after hostOps1 (W2 m ρ c) (Proc.devRef .tc main_arg4) = _
  dsimp only [hostOps1]
  stage_results <;> rfl
theorem arg5_3s : W3 m ρ c (Proc.devRef .tc main_arg5) = W2 m ρ c (Proc.devRef .tc main_arg5) := by
  show StableHlo.after hostOps1 (W2 m ρ c) (Proc.devRef .tc main_arg5) = _
  dsimp only [hostOps1]
  stage_results <;> rfl

/-! ## Region 1 -/

theorem src_4s : W4 m ρ c (Proc.devRef .tc main_call0_v5) = W3 m ρ c (Proc.devRef .tc main_call0_v5) :=
  W4_of_ne m ρ c main_call0_v5 (by decide)
theorem dst_4s : W4 m ρ c (Proc.devRef .tc main_call0_v6) = W3 m ρ c (Proc.devRef .tc main_call0_v6) :=
  W4_of_ne m ρ c main_call0_v6 (by decide)
theorem wgt_4s : W4 m ρ c (Proc.devRef .tc main_call0_v29) = W3 m ρ c (Proc.devRef .tc main_call0_v29) :=
  W4_of_ne m ρ c main_call0_v29 (by decide)
theorem arg5_4s : W4 m ρ c (Proc.devRef .tc main_arg5) = W3 m ρ c (Proc.devRef .tc main_arg5) :=
  W4_of_ne m ρ c main_arg5 (by decide)

/-! ## Stretch 2 -/

set_option maxHeartbeats 4000000 in
/-- After stretch 2 the aggregate's buffer holds the 32-wide aggregation of what stretch 2 finds. -/
theorem agg5 : W5 m ρ c (Proc.devRef .tc main_call0_v58)
    = aggregate32 (F := Ideal) (W4 m ρ c (Proc.devRef .tc main_call0_v45)) (W4 m ρ c (Proc.devRef .tc main_call0_v5))
        (W4 m ρ c (Proc.devRef .tc main_call0_v6)) (W4 m ρ c (Proc.devRef .tc main_call0_v29)) := by
  show StableHlo.after hostOps2 (W4 m ρ c) (Proc.devRef .tc main_call0_v58) = _
  dsimp only [hostOps2]
  stage_results <;> rfl
/-- After stretch 2 the bias row's buffer holds the second bias cast to a row. -/
theorem bias5 : W5 m ρ c (Proc.devRef .tc main_call0_v59)
    = shapeCast S1x32 (W4 m ρ c (Proc.devRef .tc main_arg5)) shapeCasts_S32_S1x32 := by
  show StableHlo.after hostOps2 (W4 m ρ c) (Proc.devRef .tc main_call0_v59) = _
  dsimp only [hostOps2]
  stage_results <;> rfl

/-! ## The lists, the weights and the arguments at each later boundary -/

theorem src2 : W2 m ρ c (Proc.devRef .tc main_call0_v5) = srcNodes (m ((c : Thread nD τ).loc main_arg1)) := (src_2s m ρ c).trans (src1 m ρ c)
theorem dst2 : W2 m ρ c (Proc.devRef .tc main_call0_v6) = dstNodes (m ((c : Thread nD τ).loc main_arg1)) := (dst_2s m ρ c).trans (dst1 m ρ c)
theorem wgt2 : W2 m ρ c (Proc.devRef .tc main_call0_v29) = edgeWeight (F := Ideal) (srcNodes (m ((c : Thread nD τ).loc main_arg1))) (dstNodes (m ((c : Thread nD τ).loc main_arg1))) :=
  (wgt_2s m ρ c).trans (wgt1 m ρ c)
theorem arg3_2 : W2 m ρ c (Proc.devRef .tc main_arg3) = (m ((c : Thread nD τ).loc main_arg3)) := (arg3_2s m ρ c).trans (arg3_1' m ρ c)
theorem arg4_3 : W3 m ρ c (Proc.devRef .tc main_arg4) = (m ((c : Thread nD τ).loc main_arg4)) :=
  (arg4_3s m ρ c).trans ((arg4_2s m ρ c).trans (arg4_1' m ρ c))
theorem src4 : W4 m ρ c (Proc.devRef .tc main_call0_v5) = srcNodes (m ((c : Thread nD τ).loc main_arg1)) :=
  (src_4s m ρ c).trans ((src_3s m ρ c).trans (src2 m ρ c))
theorem dst4 : W4 m ρ c (Proc.devRef .tc main_call0_v6) = dstNodes (m ((c : Thread nD τ).loc main_arg1)) :=
  (dst_4s m ρ c).trans ((dst_3s m ρ c).trans (dst2 m ρ c))
theorem wgt4 : W4 m ρ c (Proc.devRef .tc main_call0_v29) = edgeWeight (F := Ideal) (srcNodes (m ((c : Thread nD τ).loc main_arg1))) (dstNodes (m ((c : Thread nD τ).loc main_arg1))) :=
  (wgt_4s m ρ c).trans ((wgt_3s m ρ c).trans (wgt2 m ρ c))
theorem arg5_4 : W4 m ρ c (Proc.devRef .tc main_arg5) = (m ((c : Thread nD τ).loc main_arg5)) :=
  (arg5_4s m ρ c).trans ((arg5_3s m ρ c).trans ((arg5_2s m ρ c).trans (arg5_1' m ρ c)))

/-! ## The result -/

/-- After region 1 its output holds the second product of the aggregated first product. -/
theorem prod4 : W4 m ρ c (Proc.devRef .tc main_call0_v45)
    = prodB (aggregate16 (F := Ideal) (prodA (m ((c : Thread nD τ).loc main_arg0)) (m ((c : Thread nD τ).loc main_arg2))) (srcNodes (m ((c : Thread nD τ).loc main_arg1))) (dstNodes (m ((c : Thread nD τ).loc main_arg1)))
          (edgeWeight (F := Ideal) (srcNodes (m ((c : Thread nD τ).loc main_arg1))) (dstNodes (m ((c : Thread nD τ).loc main_arg1)))))
        (shapeCast S1x16 (m ((c : Thread nD τ).loc main_arg3)) shapeCasts_S16_S1x16) (m ((c : Thread nD τ).loc main_arg4)) := by
  refine (W4_arr m ρ c 3).trans ((array1 (V3 m ρ) c).trans ?_)
  show prodB (W3 m ρ c (Proc.devRef .tc main_call0_v43)) (W3 m ρ c (Proc.devRef .tc main_call0_v44)) (W3 m ρ c (Proc.devRef .tc main_arg4)) = _
  rw [agg3, bias3, arg4_3, prod2, src2, dst2, wgt2, arg3_2]

/-- At the last boundary the result's buffer holds `kernelValue` of the arguments as launched. -/
theorem last_value : W6 m ρ c (Proc.devRef .tc main_v0)
    = kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 2).trans ((array2 (V5 m ρ) c).trans ?_)
  show lsmC (W5 m ρ c (Proc.devRef .tc main_call0_v58)) (W5 m ρ c (Proc.devRef .tc main_call0_v59)) = _
  rw [agg5, bias5, prod4, src4, dst4, wgt4, arg5_4]
  rfl

end Cert.KernelIdeal.Whole

end
-- ==== Proof.RefLine.lean ====
/-
  The reference program as a straight line of host operations, and its run.

  The reference's @main (with the functions it calls written out at their calls) is a list of 134 host operations,
  each writing one buffer of its own from buffers written before it. Every weakly fair execution of such a line
  terminates, nothing faulting, with every buffer at the fold of the operations' results over the launch memory. The
  list is also stated in seven consecutive pieces — the edge lists and the first product; the degrees and the edge
  weights; the first aggregation; the first bias, the maximum with zero and the second product; the edge lists and
  weights formed a second time; the second aggregation; the second bias and the logarithm of the softmax — so that the
  fold can be read one piece at a time.
-/
import proofs.«123740_j44676249813403_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's 134 operations, in order (a called function's operations stand in its call's place). -/
abbrev ops : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_arg0 main_arg2 main_v4 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_v5 (iotaInDim S100000 32 0),
    binary main_v1 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v6 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v6 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v6 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v6 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v6 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v6 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v4 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    nullary main_v49 (iotaInDim S100000 32 0),
    binary main_v1 main_v49 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v49 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v52 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S3300000x1 ![0] bcast_S3300000_S3300000x1_0 : (⟨S3300000, .i32⟩ : BufTy).Contents (Elt F) → (⟨S3300000x1, .i32⟩ : BufTy).Contents (Elt F)),
    ternary main_v53 main_v54 main_v52 main_v55 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_13 (constantI S_ 32 0#32),
    unary main_c_13 main_v60 (broadcastInDim S3300000 ![] bcast_S_S3300000 : (⟨S_, .i32⟩ : BufTy).Contents (Elt F) → (⟨S3300000, .i32⟩ : BufTy).Contents (Elt F)),
    binary main_v50 main_v60 main_v61 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v62 (broadcastInDim S3300000 ![] bcast_S_S3300000 : (⟨S_, .i32⟩ : BufTy).Contents (Elt F) → (⟨S3300000, .i32⟩ : BufTy).Contents (Elt F)),
    binary main_v50 main_v62 main_v63 (addi : (⟨S3300000, .i32⟩ : BufTy).Contents (Elt F) → (⟨S3300000, .i32⟩ : BufTy).Contents (Elt F) → (⟨S3300000, .i32⟩ : BufTy).Contents (Elt F)),
    ternary main_v61 main_v63 main_v50 main_v64 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v64 main_v65 (broadcastInDim S3300000x1 ![0] bcast_S3300000_S3300000x1_0 : (⟨S3300000, .i32⟩ : BufTy).Contents (Elt F) → (⟨S3300000x1, .i32⟩ : BufTy).Contents (Elt F)),
    binary main_v59 main_v65 main_v66 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v67 (broadcastInDim S3300000 ![] bcast_S_S3300000 : (⟨S_, .i32⟩ : BufTy).Contents (Elt F) → (⟨S3300000, .i32⟩ : BufTy).Contents (Elt F)),
    binary main_v51 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v69 (broadcastInDim S3300000 ![] bcast_S_S3300000 : (⟨S_, .i32⟩ : BufTy).Contents (Elt F) → (⟨S3300000, .i32⟩ : BufTy).Contents (Elt F)),
    binary main_v51 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v51 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v59 main_v72 main_v73 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v66 main_v73 main_v74 (mulf : (⟨S3300000, .f32⟩ : BufTy).Contents (Elt F) → (⟨S3300000, .f32⟩ : BufTy).Contents (Elt F) → (⟨S3300000, .f32⟩ : BufTy).Contents (Elt F)),
    nullary main_c_17 (constantI S_ 32 0#32),
    unary main_c_17 main_v75 (broadcastInDim S3300000 ![] bcast_S_S3300000 : (⟨S_, .i32⟩ : BufTy).Contents (Elt F) → (⟨S3300000, .i32⟩ : BufTy).Contents (Elt F)),
    binary main_v50 main_v75 main_v76 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v77 (broadcastInDim S3300000 ![] bcast_S_S3300000 : (⟨S_, .i32⟩ : BufTy).Contents (Elt F) → (⟨S3300000, .i32⟩ : BufTy).Contents (Elt F)),
    binary main_v50 main_v77 main_v78 (addi : (⟨S3300000, .i32⟩ : BufTy).Contents (Elt F) → (⟨S3300000, .i32⟩ : BufTy).Contents (Elt F) → (⟨S3300000, .i32⟩ : BufTy).Contents (Elt F)),
    ternary main_v76 main_v78 main_v50 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v79 main_v80 (broadcastInDim S3300000x1 ![0] bcast_S3300000_S3300000x1_0 : (⟨S3300000, .i32⟩ : BufTy).Contents (Elt F) → (⟨S3300000x1, .i32⟩ : BufTy).Contents (Elt F)),
    binary main_v48 main_v80 main_v81 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v74 main_v82 (broadcastInDim S3300000x1 ![0] bcast_S3300000_S3300000x1_0 : (⟨S3300000, .f32⟩ : BufTy).Contents (Elt F) → (⟨S3300000x1, .f32⟩ : BufTy).Contents (Elt F)),
    unary main_v82 main_v83 (broadcastInDim S3300000x32 ![0, 1] bcast_S3300000x1_S3300000x32_0_1 : (⟨S3300000x1, .f32⟩ : BufTy).Contents (Elt F) → (⟨S3300000x32, .f32⟩ : BufTy).Contents (Elt F)),
    binary main_v81 main_v83 main_v84 (mulf : (⟨S3300000x32, .f32⟩ : BufTy).Contents (Elt F) → (⟨S3300000x32, .f32⟩ : BufTy).Contents (Elt F) → (⟨S3300000x32, .f32⟩ : BufTy).Contents (Elt F)),
    nullary main_cst_19 (constant S_ .f32 0x00000000#32),
    unary main_cst_19 main_v85 (broadcastInDim S100000x32 ![] bcast_S_S100000x32 : (⟨S_, .f32⟩ : BufTy).Contents (Elt F) → (⟨S100000x32, .f32⟩ : BufTy).Contents (Elt F)),
    unary main_v51 main_v86 (broadcastInDim S3300000x1 ![0] bcast_S3300000_S3300000x1_0 : (⟨S3300000, .i32⟩ : BufTy).Contents (Elt F) → (⟨S3300000x1, .i32⟩ : BufTy).Contents (Elt F)),
    ternary main_v85 main_v86 main_v84 main_v87 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    unary main_arg5 main_v88 (broadcastInDim S1x32 ![1] bcast_S32_S1x32_1 : (⟨S32, .f32⟩ : BufTy).Contents (Elt F) → (⟨S1x32, .f32⟩ : BufTy).Contents (Elt F)),
    unary main_v88 main_v89 (broadcastInDim S100000x32 ![0, 1] bcast_S1x32_S100000x32_0_1 : (⟨S1x32, .f32⟩ : BufTy).Contents (Elt F) → (⟨S100000x32, .f32⟩ : BufTy).Contents (Elt F)),
    binary main_v87 main_v89 main_v90 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call3_cst) (constant S_ .f32 0xFF800000#32),
    TRef.binary (TRef.of (T := ⟨S100000x32, .f32⟩) main_v90) (TRef.of (T := ⟨S_, .f32⟩) main_call3_cst) (TRef.of (T := ⟨S100000, .f32⟩) main_call3_v0) (fun x v => Host.reduce FloatOps.maximumf x v reducesTo_S100000x32_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x32, .f32⟩) main_call3_v4) (broadcastInDim S100000x32 ![0, 1] bcast_S100000x1_S100000x32_0_1),
    TRef.binary (TRef.of (T := ⟨S100000x32, .f32⟩) main_v90) (TRef.of (T := ⟨S100000x32, .f32⟩) main_call3_v4) (TRef.of (T := ⟨S100000x32, .f32⟩) main_call3_v5) subf,
    TRef.unary (TRef.of (T := ⟨S100000x32, .f32⟩) main_call3_v5) (TRef.of (T := ⟨S100000x32, .f32⟩) main_call3_v6) Host.exp,
    TRef.nullary (TRef.of (T := ⟨S_, .f32⟩) main_call3_cst_1) (constant S_ .f32 0x00000000#32),
    TRef.binary (TRef.of (T := ⟨S100000x32, .f32⟩) main_call3_v6) (TRef.of (T := ⟨S_, .f32⟩) main_call3_cst_1) (TRef.of (T := ⟨S100000, .f32⟩) main_call3_v7) (fun x v => Host.reduceAdd x v reducesTo_S100000x32_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x32, .f32⟩) main_call3_v10) (broadcastInDim S100000x32 ![0, 1] bcast_S100000x1_S100000x32_0_1),
    TRef.binary (TRef.of (T := ⟨S100000x32, .f32⟩) main_call3_v5) (TRef.of (T := ⟨S100000x32, .f32⟩) main_call3_v10) (TRef.of (T := ⟨S100000x32, .f32⟩) main_v91) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The same list in seven consecutive pieces -/

/-- 8 operations: the two rows of the edge array as lists, the first product, and the two node lists. -/
abbrev opsA : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_arg0 main_arg2 main_v4 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_v5 (iotaInDim S100000 32 0),
    binary main_v1 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- 33 operations: the degrees, their inverse square roots and the edge weights. -/
abbrev opsB : List (HloOp τ sig (Elt F)) :=
  [ nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v6 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v6 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v6 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

/-- 16 operations: the first aggregation. -/
abbrev opsC : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v6 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v6 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v6 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v4 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- 7 operations: the first bias, the maximum with zero and the second product. -/
abbrev opsD : List (HloOp τ sig (Elt F)) :=
  [ unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)) ]

/-- 36 operations: the node lists and the edge weights formed a second time. -/
abbrev opsE : List (HloOp τ sig (Elt F)) :=
  [ nullary main_v49 (iotaInDim S100000 32 0),
    binary main_v1 main_v49 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v49 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v52 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S3300000x1 ![0] bcast_S3300000_S3300000x1_0 : (⟨S3300000, .i32⟩ : BufTy).Contents (Elt F) → (⟨S3300000x1, .i32⟩ : BufTy).Contents (Elt F)),
    ternary main_v53 main_v54 main_v52 main_v55 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_13 (constantI S_ 32 0#32),
    unary main_c_13 main_v60 (broadcastInDim S3300000 ![] bcast_S_S3300000 : (⟨S_, .i32⟩ : BufTy).Contents (Elt F) → (⟨S3300000, .i32⟩ : BufTy).Contents (Elt F)),
    binary main_v50 main_v60 main_v61 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v62 (broadcastInDim S3300000 ![] bcast_S_S3300000 : (⟨S_, .i32⟩ : BufTy).Contents (Elt F) → (⟨S3300000, .i32⟩ : BufTy).Contents (Elt F)),
    binary main_v50 main_v62 main_v63 (addi : (⟨S3300000, .i32⟩ : BufTy).Contents (Elt F) → (⟨S3300000, .i32⟩ : BufTy).Contents (Elt F) → (⟨S3300000, .i32⟩ : BufTy).Contents (Elt F)),
    ternary main_v61 main_v63 main_v50 main_v64 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v64 main_v65 (broadcastInDim S3300000x1 ![0] bcast_S3300000_S3300000x1_0 : (⟨S3300000, .i32⟩ : BufTy).Contents (Elt F) → (⟨S3300000x1, .i32⟩ : BufTy).Contents (Elt F)),
    binary main_v59 main_v65 main_v66 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v67 (broadcastInDim S3300000 ![] bcast_S_S3300000 : (⟨S_, .i32⟩ : BufTy).Contents (Elt F) → (⟨S3300000, .i32⟩ : BufTy).Contents (Elt F)),
    binary main_v51 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v69 (broadcastInDim S3300000 ![] bcast_S_S3300000 : (⟨S_, .i32⟩ : BufTy).Contents (Elt F) → (⟨S3300000, .i32⟩ : BufTy).Contents (Elt F)),
    binary main_v51 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v51 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v59 main_v72 main_v73 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v66 main_v73 main_v74 (mulf : (⟨S3300000, .f32⟩ : BufTy).Contents (Elt F) → (⟨S3300000, .f32⟩ : BufTy).Contents (Elt F) → (⟨S3300000, .f32⟩ : BufTy).Contents (Elt F)) ]

/-- 16 operations: the second aggregation. -/
abbrev opsF : List (HloOp τ sig (Elt F)) :=
  [ nullary main_c_17 (constantI S_ 32 0#32),
    unary main_c_17 main_v75 (broadcastInDim S3300000 ![] bcast_S_S3300000 : (⟨S_, .i32⟩ : BufTy).Contents (Elt F) → (⟨S3300000, .i32⟩ : BufTy).Contents (Elt F)),
    binary main_v50 main_v75 main_v76 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v77 (broadcastInDim S3300000 ![] bcast_S_S3300000 : (⟨S_, .i32⟩ : BufTy).Contents (Elt F) → (⟨S3300000, .i32⟩ : BufTy).Contents (Elt F)),
    binary main_v50 main_v77 main_v78 (addi : (⟨S3300000, .i32⟩ : BufTy).Contents (Elt F) → (⟨S3300000, .i32⟩ : BufTy).Contents (Elt F) → (⟨S3300000, .i32⟩ : BufTy).Contents (Elt F)),
    ternary main_v76 main_v78 main_v50 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v79 main_v80 (broadcastInDim S3300000x1 ![0] bcast_S3300000_S3300000x1_0 : (⟨S3300000, .i32⟩ : BufTy).Contents (Elt F) → (⟨S3300000x1, .i32⟩ : BufTy).Contents (Elt F)),
    binary main_v48 main_v80 main_v81 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v74 main_v82 (broadcastInDim S3300000x1 ![0] bcast_S3300000_S3300000x1_0 : (⟨S3300000, .f32⟩ : BufTy).Contents (Elt F) → (⟨S3300000x1, .f32⟩ : BufTy).Contents (Elt F)),
    unary main_v82 main_v83 (broadcastInDim S3300000x32 ![0, 1] bcast_S3300000x1_S3300000x32_0_1 : (⟨S3300000x1, .f32⟩ : BufTy).Contents (Elt F) → (⟨S3300000x32, .f32⟩ : BufTy).Contents (Elt F)),
    binary main_v81 main_v83 main_v84 (mulf : (⟨S3300000x32, .f32⟩ : BufTy).Contents (Elt F) → (⟨S3300000x32, .f32⟩ : BufTy).Contents (Elt F) → (⟨S3300000x32, .f32⟩ : BufTy).Contents (Elt F)),
    nullary main_cst_19 (constant S_ .f32 0x00000000#32),
    unary main_cst_19 main_v85 (broadcastInDim S100000x32 ![] bcast_S_S100000x32 : (⟨S_, .f32⟩ : BufTy).Contents (Elt F) → (⟨S100000x32, .f32⟩ : BufTy).Contents (Elt F)),
    unary main_v51 main_v86 (broadcastInDim S3300000x1 ![0] bcast_S3300000_S3300000x1_0 : (⟨S3300000, .i32⟩ : BufTy).Contents (Elt F) → (⟨S3300000x1, .i32⟩ : BufTy).Contents (Elt F)),
    ternary main_v85 main_v86 main_v84 main_v87 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)) ]

/-- 18 operations: the second bias and the logarithm of the softmax. -/
abbrev opsG : List (HloOp τ sig (Elt F)) :=
  [ unary main_arg5 main_v88 (broadcastInDim S1x32 ![1] bcast_S32_S1x32_1 : (⟨S32, .f32⟩ : BufTy).Contents (Elt F) → (⟨S1x32, .f32⟩ : BufTy).Contents (Elt F)),
    unary main_v88 main_v89 (broadcastInDim S100000x32 ![0, 1] bcast_S1x32_S100000x32_0_1 : (⟨S1x32, .f32⟩ : BufTy).Contents (Elt F) → (⟨S100000x32, .f32⟩ : BufTy).Contents (Elt F)),
    binary main_v87 main_v89 main_v90 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call3_cst) (constant S_ .f32 0xFF800000#32),
    TRef.binary (TRef.of (T := ⟨S100000x32, .f32⟩) main_v90) (TRef.of (T := ⟨S_, .f32⟩) main_call3_cst) (TRef.of (T := ⟨S100000, .f32⟩) main_call3_v0) (fun x v => Host.reduce FloatOps.maximumf x v reducesTo_S100000x32_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x32, .f32⟩) main_call3_v4) (broadcastInDim S100000x32 ![0, 1] bcast_S100000x1_S100000x32_0_1),
    TRef.binary (TRef.of (T := ⟨S100000x32, .f32⟩) main_v90) (TRef.of (T := ⟨S100000x32, .f32⟩) main_call3_v4) (TRef.of (T := ⟨S100000x32, .f32⟩) main_call3_v5) subf,
    TRef.unary (TRef.of (T := ⟨S100000x32, .f32⟩) main_call3_v5) (TRef.of (T := ⟨S100000x32, .f32⟩) main_call3_v6) Host.exp,
    TRef.nullary (TRef.of (T := ⟨S_, .f32⟩) main_call3_cst_1) (constant S_ .f32 0x00000000#32),
    TRef.binary (TRef.of (T := ⟨S100000x32, .f32⟩) main_call3_v6) (TRef.of (T := ⟨S_, .f32⟩) main_call3_cst_1) (TRef.of (T := ⟨S100000, .f32⟩) main_call3_v7) (fun x v => Host.reduceAdd x v reducesTo_S100000x32_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x32, .f32⟩) main_call3_v10) (broadcastInDim S100000x32 ![0, 1] bcast_S100000x1_S100000x32_0_1),
    TRef.binary (TRef.of (T := ⟨S100000x32, .f32⟩) main_call3_v5) (TRef.of (T := ⟨S100000x32, .f32⟩) main_call3_v10) (TRef.of (T := ⟨S100000x32, .f32⟩) main_v91) subf ]

/-- The seven pieces, in order, are the whole list. -/
theorem ops_eq : (ops : List (HloOp τ sig (Elt F))) = opsA ++ (opsB ++ (opsC ++ (opsD ++ (opsE ++ (opsF ++ opsG))))) := rfl

/-! ## The run -/

/-- On every device, from any memory with zero counters: every weakly fair execution of @main terminates with each
    buffer at the fold of the 134 operations' results over the launch memory. -/
theorem run_raw (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ

end Cert.ReferenceIdeal.Line

end
-- ==== Proof.RefStages.lean ====
/-
  The reference's line of operations read piece by piece.

  The final contents of the reference's buffers are the fold of its 134 operations over the launch memory. Folding a
  list that is two lists one after the other is folding the first and then the second (the library's `after_append`), so
  the fold is taken through the seven consecutive pieces of the list. Within a piece a buffer the piece does not write keeps its contents, and the
  buffer a piece is read for holds the piece's operations applied to what the piece finds; when what it finds are the
  earlier stages (as functions of the six arguments), that is the next stage. So after the seventh piece the result's
  buffer holds the last stage of the six arguments as launched, and the arguments' buffers are as launched.
-/
import proofs.«123740_j44676249813403_1_alg».proof.Proof.RefLine
import proofs.«123740_j44676249813403_1_alg».proof.Proof.RefRead
import proofs.«123740_j44676249813403_1_alg».proof.Proof.LibStageRead

set_option maxRecDepth 16384

noncomputable section

namespace Cert.ReferenceIdeal.Stages

open Cert.ReferenceIdeal Cert.ReferenceIdeal.Gen Cert.ReferenceIdeal.Line Cert.ReferenceIdeal.ReadP
open Idealize.ShloMosaic Idealize.ShloMosaic.TcCoe Idealize.SL.Sem Idealize.ShloMosaic.StableHlo
open Cert.StageRead

/-! ## Buffers a piece leaves alone -/

theorem stayA_arg0 (U : Valuation τ sig (Elt Ideal)) : after opsA U (Proc.devRef .tc main_arg0) = U (Proc.devRef .tc main_arg0) := by
  dsimp only [opsA]; stage_results
theorem stayA_arg1 (U : Valuation τ sig (Elt Ideal)) : after opsA U (Proc.devRef .tc main_arg1) = U (Proc.devRef .tc main_arg1) := by
  dsimp only [opsA]; stage_results
theorem stayA_arg2 (U : Valuation τ sig (Elt Ideal)) : after opsA U (Proc.devRef .tc main_arg2) = U (Proc.devRef .tc main_arg2) := by
  dsimp only [opsA]; stage_results
theorem stayA_arg3 (U : Valuation τ sig (Elt Ideal)) : after opsA U (Proc.devRef .tc main_arg3) = U (Proc.devRef .tc main_arg3) := by
  dsimp only [opsA]; stage_results
theorem stayA_arg4 (U : Valuation τ sig (Elt Ideal)) : after opsA U (Proc.devRef .tc main_arg4) = U (Proc.devRef .tc main_arg4) := by
  dsimp only [opsA]; stage_results
theorem stayA_arg5 (U : Valuation τ sig (Elt Ideal)) : after opsA U (Proc.devRef .tc main_arg5) = U (Proc.devRef .tc main_arg5) := by
  dsimp only [opsA]; stage_results
theorem stayB_v1 (U : Valuation τ sig (Elt Ideal)) : after opsB U (Proc.devRef .tc main_v1) = U (Proc.devRef .tc main_v1) := by
  dsimp only [opsB]; stage_results
theorem stayB_v3 (U : Valuation τ sig (Elt Ideal)) : after opsB U (Proc.devRef .tc main_v3) = U (Proc.devRef .tc main_v3) := by
  dsimp only [opsB]; stage_results
theorem stayB_v4 (U : Valuation τ sig (Elt Ideal)) : after opsB U (Proc.devRef .tc main_v4) = U (Proc.devRef .tc main_v4) := by
  dsimp only [opsB]; stage_results
theorem stayB_v6 (U : Valuation τ sig (Elt Ideal)) : after opsB U (Proc.devRef .tc main_v6) = U (Proc.devRef .tc main_v6) := by
  dsimp only [opsB]; stage_results
theorem stayB_v7 (U : Valuation τ sig (Elt Ideal)) : after opsB U (Proc.devRef .tc main_v7) = U (Proc.devRef .tc main_v7) := by
  dsimp only [opsB]; stage_results
theorem stayB_arg0 (U : Valuation τ sig (Elt Ideal)) : after opsB U (Proc.devRef .tc main_arg0) = U (Proc.devRef .tc main_arg0) := by
  dsimp only [opsB]; stage_results
theorem stayB_arg1 (U : Valuation τ sig (Elt Ideal)) : after opsB U (Proc.devRef .tc main_arg1) = U (Proc.devRef .tc main_arg1) := by
  dsimp only [opsB]; stage_results
theorem stayB_arg2 (U : Valuation τ sig (Elt Ideal)) : after opsB U (Proc.devRef .tc main_arg2) = U (Proc.devRef .tc main_arg2) := by
  dsimp only [opsB]; stage_results
theorem stayB_arg3 (U : Valuation τ sig (Elt Ideal)) : after opsB U (Proc.devRef .tc main_arg3) = U (Proc.devRef .tc main_arg3) := by
  dsimp only [opsB]; stage_results
theorem stayB_arg4 (U : Valuation τ sig (Elt Ideal)) : after opsB U (Proc.devRef .tc main_arg4) = U (Proc.devRef .tc main_arg4) := by
  dsimp only [opsB]; stage_results
theorem stayB_arg5 (U : Valuation τ sig (Elt Ideal)) : after opsB U (Proc.devRef .tc main_arg5) = U (Proc.devRef .tc main_arg5) := by
  dsimp only [opsB]; stage_results
theorem stayC_v1 (U : Valuation τ sig (Elt Ideal)) : after opsC U (Proc.devRef .tc main_v1) = U (Proc.devRef .tc main_v1) := by
  dsimp only [opsC]; stage_results
theorem stayC_v3 (U : Valuation τ sig (Elt Ideal)) : after opsC U (Proc.devRef .tc main_v3) = U (Proc.devRef .tc main_v3) := by
  dsimp only [opsC]; stage_results
theorem stayC_arg0 (U : Valuation τ sig (Elt Ideal)) : after opsC U (Proc.devRef .tc main_arg0) = U (Proc.devRef .tc main_arg0) := by
  dsimp only [opsC]; stage_results
theorem stayC_arg1 (U : Valuation τ sig (Elt Ideal)) : after opsC U (Proc.devRef .tc main_arg1) = U (Proc.devRef .tc main_arg1) := by
  dsimp only [opsC]; stage_results
theorem stayC_arg2 (U : Valuation τ sig (Elt Ideal)) : after opsC U (Proc.devRef .tc main_arg2) = U (Proc.devRef .tc main_arg2) := by
  dsimp only [opsC]; stage_results
theorem stayC_arg3 (U : Valuation τ sig (Elt Ideal)) : after opsC U (Proc.devRef .tc main_arg3) = U (Proc.devRef .tc main_arg3) := by
  dsimp only [opsC]; stage_results
theorem stayC_arg4 (U : Valuation τ sig (Elt Ideal)) : after opsC U (Proc.devRef .tc main_arg4) = U (Proc.devRef .tc main_arg4) := by
  dsimp only [opsC]; stage_results
theorem stayC_arg5 (U : Valuation τ sig (Elt Ideal)) : after opsC U (Proc.devRef .tc main_arg5) = U (Proc.devRef .tc main_arg5) := by
  dsimp only [opsC]; stage_results
theorem stayD_v1 (U : Valuation τ sig (Elt Ideal)) : after opsD U (Proc.devRef .tc main_v1) = U (Proc.devRef .tc main_v1) := by
  dsimp only [opsD]; stage_results
theorem stayD_v3 (U : Valuation τ sig (Elt Ideal)) : after opsD U (Proc.devRef .tc main_v3) = U (Proc.devRef .tc main_v3) := by
  dsimp only [opsD]; stage_results
theorem stayD_arg0 (U : Valuation τ sig (Elt Ideal)) : after opsD U (Proc.devRef .tc main_arg0) = U (Proc.devRef .tc main_arg0) := by
  dsimp only [opsD]; stage_results
theorem stayD_arg1 (U : Valuation τ sig (Elt Ideal)) : after opsD U (Proc.devRef .tc main_arg1) = U (Proc.devRef .tc main_arg1) := by
  dsimp only [opsD]; stage_results
theorem stayD_arg2 (U : Valuation τ sig (Elt Ideal)) : after opsD U (Proc.devRef .tc main_arg2) = U (Proc.devRef .tc main_arg2) := by
  dsimp only [opsD]; stage_results
theorem stayD_arg3 (U : Valuation τ sig (Elt Ideal)) : after opsD U (Proc.devRef .tc main_arg3) = U (Proc.devRef .tc main_arg3) := by
  dsimp only [opsD]; stage_results
theorem stayD_arg4 (U : Valuation τ sig (Elt Ideal)) : after opsD U (Proc.devRef .tc main_arg4) = U (Proc.devRef .tc main_arg4) := by
  dsimp only [opsD]; stage_results
theorem stayD_arg5 (U : Valuation τ sig (Elt Ideal)) : after opsD U (Proc.devRef .tc main_arg5) = U (Proc.devRef .tc main_arg5) := by
  dsimp only [opsD]; stage_results
theorem stayE_v48 (U : Valuation τ sig (Elt Ideal)) : after opsE U (Proc.devRef .tc main_v48) = U (Proc.devRef .tc main_v48) := by
  dsimp only [opsE]; stage_results
theorem stayE_arg0 (U : Valuation τ sig (Elt Ideal)) : after opsE U (Proc.devRef .tc main_arg0) = U (Proc.devRef .tc main_arg0) := by
  dsimp only [opsE]; stage_results
theorem stayE_arg1 (U : Valuation τ sig (Elt Ideal)) : after opsE U (Proc.devRef .tc main_arg1) = U (Proc.devRef .tc main_arg1) := by
  dsimp only [opsE]; stage_results
theorem stayE_arg2 (U : Valuation τ sig (Elt Ideal)) : after opsE U (Proc.devRef .tc main_arg2) = U (Proc.devRef .tc main_arg2) := by
  dsimp only [opsE]; stage_results
theorem stayE_arg3 (U : Valuation τ sig (Elt Ideal)) : after opsE U (Proc.devRef .tc main_arg3) = U (Proc.devRef .tc main_arg3) := by
  dsimp only [opsE]; stage_results
theorem stayE_arg4 (U : Valuation τ sig (Elt Ideal)) : after opsE U (Proc.devRef .tc main_arg4) = U (Proc.devRef .tc main_arg4) := by
  dsimp only [opsE]; stage_results
theorem stayE_arg5 (U : Valuation τ sig (Elt Ideal)) : after opsE U (Proc.devRef .tc main_arg5) = U (Proc.devRef .tc main_arg5) := by
  dsimp only [opsE]; stage_results
theorem stayF_arg0 (U : Valuation τ sig (Elt Ideal)) : after opsF U (Proc.devRef .tc main_arg0) = U (Proc.devRef .tc main_arg0) := by
  dsimp only [opsF]; stage_results
theorem stayF_arg1 (U : Valuation τ sig (Elt Ideal)) : after opsF U (Proc.devRef .tc main_arg1) = U (Proc.devRef .tc main_arg1) := by
  dsimp only [opsF]; stage_results
theorem stayF_arg2 (U : Valuation τ sig (Elt Ideal)) : after opsF U (Proc.devRef .tc main_arg2) = U (Proc.devRef .tc main_arg2) := by
  dsimp only [opsF]; stage_results
theorem stayF_arg3 (U : Valuation τ sig (Elt Ideal)) : after opsF U (Proc.devRef .tc main_arg3) = U (Proc.devRef .tc main_arg3) := by
  dsimp only [opsF]; stage_results
theorem stayF_arg4 (U : Valuation τ sig (Elt Ideal)) : after opsF U (Proc.devRef .tc main_arg4) = U (Proc.devRef .tc main_arg4) := by
  dsimp only [opsF]; stage_results
theorem stayF_arg5 (U : Valuation τ sig (Elt Ideal)) : after opsF U (Proc.devRef .tc main_arg5) = U (Proc.devRef .tc main_arg5) := by
  dsimp only [opsF]; stage_results
theorem stayG_arg0 (U : Valuation τ sig (Elt Ideal)) : after opsG U (Proc.devRef .tc main_arg0) = U (Proc.devRef .tc main_arg0) := by
  dsimp only [opsG]; stage_results
theorem stayG_arg1 (U : Valuation τ sig (Elt Ideal)) : after opsG U (Proc.devRef .tc main_arg1) = U (Proc.devRef .tc main_arg1) := by
  dsimp only [opsG]; stage_results
theorem stayG_arg2 (U : Valuation τ sig (Elt Ideal)) : after opsG U (Proc.devRef .tc main_arg2) = U (Proc.devRef .tc main_arg2) := by
  dsimp only [opsG]; stage_results
theorem stayG_arg3 (U : Valuation τ sig (Elt Ideal)) : after opsG U (Proc.devRef .tc main_arg3) = U (Proc.devRef .tc main_arg3) := by
  dsimp only [opsG]; stage_results
theorem stayG_arg4 (U : Valuation τ sig (Elt Ideal)) : after opsG U (Proc.devRef .tc main_arg4) = U (Proc.devRef .tc main_arg4) := by
  dsimp only [opsG]; stage_results
theorem stayG_arg5 (U : Valuation τ sig (Elt Ideal)) : after opsG U (Proc.devRef .tc main_arg5) = U (Proc.devRef .tc main_arg5) := by
  dsimp only [opsG]; stage_results

/-! ## What each piece computes -/

section Pieces

variable (U : Valuation τ sig (Elt Ideal))

/-- Piece A: the two rows of the edge array as lists. -/
theorem pieceA_v1 : after opsA U (Proc.devRef .tc main_v1) = val_main_v1 (F := Ideal) (U (Proc.devRef .tc main_arg1)) := by
  dsimp only [opsA]; stage_results <;> rfl
theorem pieceA_v3 : after opsA U (Proc.devRef .tc main_v3) = val_main_v3 (F := Ideal) (U (Proc.devRef .tc main_arg1)) := by
  dsimp only [opsA]; stage_results <;> rfl
/-- Piece A: the first product. -/
theorem pieceA_v4 : after opsA U (Proc.devRef .tc main_v4)
    = val_main_v4 (F := Ideal) (U (Proc.devRef .tc main_arg0)) (U (Proc.devRef .tc main_arg2)) := by
  dsimp only [opsA]; stage_results <;> rfl
/-- Piece A: the source list and the target list, each followed by every node. -/
theorem pieceA_v6 : after opsA U (Proc.devRef .tc main_v6) = val_main_v6 (F := Ideal) (U (Proc.devRef .tc main_arg1)) := by
  dsimp only [opsA]; stage_results <;> rfl
theorem pieceA_v7 : after opsA U (Proc.devRef .tc main_v7) = val_main_v7 (F := Ideal) (U (Proc.devRef .tc main_arg1)) := by
  dsimp only [opsA]; stage_results <;> rfl

variable (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x32, .f32⟩ : BufTy).Contents (Elt Ideal)) (x5 : (⟨S32, .f32⟩ : BufTy).Contents (Elt Ideal))

/-- Piece B: the edge weights, from the two node lists. -/
theorem pieceB_v30 (h6 : U (Proc.devRef .tc main_v6) = val_main_v6 (F := Ideal) x1) (h7 : U (Proc.devRef .tc main_v7) = val_main_v7 (F := Ideal) x1) :
    after opsB U (Proc.devRef .tc main_v30) = val_main_v30 (F := Ideal) x1 := by
  dsimp only [opsB]; stage_results; simp only [h6, h7]; rfl

/-- Piece C: the first aggregation, from the first product, the node lists and the edge weights. -/
theorem pieceC_v43 (h4 : U (Proc.devRef .tc main_v4) = val_main_v4 (F := Ideal) x0 x2)
    (h6 : U (Proc.devRef .tc main_v6) = val_main_v6 (F := Ideal) x1) (h7 : U (Proc.devRef .tc main_v7) = val_main_v7 (F := Ideal) x1)
    (h30 : U (Proc.devRef .tc main_v30) = val_main_v30 (F := Ideal) x1) :
    after opsC U (Proc.devRef .tc main_v43) = val_main_v43 (F := Ideal) x0 x1 x2 := by
  dsimp only [opsC]; stage_results; simp only [h4, h6, h7, h30]; rfl

/-- Piece D: the second product, from the first aggregation, the first bias and the second weight array. -/
theorem pieceD_v48 (h43 : U (Proc.devRef .tc main_v43) = val_main_v43 (F := Ideal) x0 x1 x2)
    (a3 : U (Proc.devRef .tc main_arg3) = x3) (a4 : U (Proc.devRef .tc main_arg4) = x4) :
    after opsD U (Proc.devRef .tc main_v48) = val_main_v48 (F := Ideal) x0 x1 x2 x3 x4 := by
  dsimp only [opsD]; stage_results; simp only [h43, a3, a4]; rfl

/-- Piece E: the node lists and the edge weights once more, from the two rows of the edge array. -/
theorem pieceE_v50 (h1 : U (Proc.devRef .tc main_v1) = val_main_v1 (F := Ideal) x1) :
    after opsE U (Proc.devRef .tc main_v50) = val_main_v50 (F := Ideal) x1 := by
  dsimp only [opsE]; stage_results; simp only [h1]; rfl
theorem pieceE_v51 (h3 : U (Proc.devRef .tc main_v3) = val_main_v3 (F := Ideal) x1) :
    after opsE U (Proc.devRef .tc main_v51) = val_main_v51 (F := Ideal) x1 := by
  dsimp only [opsE]; stage_results; simp only [h3]; rfl
theorem pieceE_v74 (h1 : U (Proc.devRef .tc main_v1) = val_main_v1 (F := Ideal) x1) (h3 : U (Proc.devRef .tc main_v3) = val_main_v3 (F := Ideal) x1) :
    after opsE U (Proc.devRef .tc main_v74) = val_main_v74 (F := Ideal) x1 := by
  dsimp only [opsE]; stage_results; simp only [h1, h3]; rfl

/-- Piece F: the second aggregation, from the second product and the second copies of the lists and weights. -/
theorem pieceF_v87 (h48 : U (Proc.devRef .tc main_v48) = val_main_v48 (F := Ideal) x0 x1 x2 x3 x4)
    (h50 : U (Proc.devRef .tc main_v50) = val_main_v50 (F := Ideal) x1) (h51 : U (Proc.devRef .tc main_v51) = val_main_v51 (F := Ideal) x1)
    (h74 : U (Proc.devRef .tc main_v74) = val_main_v74 (F := Ideal) x1) :
    after opsF U (Proc.devRef .tc main_v87) = val_main_v87 (F := Ideal) x0 x1 x2 x3 x4 := by
  dsimp only [opsF]; stage_results; simp only [h48, h50, h51, h74]; rfl

/-- Piece G: the result, from the second aggregation and the second bias. -/
theorem pieceG_v91 (h87 : U (Proc.devRef .tc main_v87) = val_main_v87 (F := Ideal) x0 x1 x2 x3 x4) (a5 : U (Proc.devRef .tc main_arg5) = x5) :
    after opsG U (Proc.devRef .tc main_v91) = val_main_v91 (F := Ideal) x0 x1 x2 x3 x4 x5 := by
  dsimp only [opsG]; stage_results; simp only [h87, a5]; rfl

end Pieces

/-! ## The whole line -/

section Whole

variable (V : Valuation τ sig (Elt Ideal))

/-- The fold of the whole list is the fold through the seven pieces. -/
theorem after_ops : after ops V
    = after opsG (after opsF (after opsE (after opsD (after opsC (after opsB (after opsA V)))))) := by
  rw [ops_eq, StableHlo.after_append, StableHlo.after_append, StableHlo.after_append, StableHlo.after_append,
    StableHlo.after_append, StableHlo.after_append]

/-- After the whole line the result's buffer holds the last stage of the arguments' contents before it. -/
theorem result_eq : after ops V (Proc.devRef .tc main_v91)
    = val_main_v91 (F := Ideal) (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  rw [after_ops]
  refine pieceG_v91 _ _ _ _ _ _ _ ?_ ?_
  · refine pieceF_v87 _ _ _ _ _ _ ?_ ?_ ?_ ?_
    · rw [stayE_v48]
      refine pieceD_v48 _ _ _ _ _ _ ?_ ?_ ?_
      · refine pieceC_v43 _ _ _ _ ?_ ?_ ?_ ?_
        · rw [stayB_v4]; exact pieceA_v4 V
        · rw [stayB_v6]; exact pieceA_v6 V
        · rw [stayB_v7]; exact pieceA_v7 V
        · exact pieceB_v30 _ _ (pieceA_v6 V) (pieceA_v7 V)
      · rw [stayC_arg3, stayB_arg3, stayA_arg3]
      · rw [stayC_arg4, stayB_arg4, stayA_arg4]
    · refine pieceE_v50 _ _ ?_
      rw [stayD_v1, stayC_v1, stayB_v1]; exact pieceA_v1 V
    · refine pieceE_v51 _ _ ?_
      rw [stayD_v3, stayC_v3, stayB_v3]; exact pieceA_v3 V
    · refine pieceE_v74 _ _ ?_ ?_
      · rw [stayD_v1, stayC_v1, stayB_v1]; exact pieceA_v1 V
      · rw [stayD_v3, stayC_v3, stayB_v3]; exact pieceA_v3 V
  · rw [stayF_arg5, stayE_arg5, stayD_arg5, stayC_arg5, stayB_arg5, stayA_arg5]

/-- After the whole line argument 0's buffer is as it was. -/
theorem arg0_eq : after ops V (Proc.devRef .tc main_arg0) = V (Proc.devRef .tc main_arg0) := by
  rw [after_ops, stayG_arg0, stayF_arg0, stayE_arg0, stayD_arg0, stayC_arg0, stayB_arg0, stayA_arg0]
/-- After the whole line argument 1's buffer is as it was. -/
theorem arg1_eq : after ops V (Proc.devRef .tc main_arg1) = V (Proc.devRef .tc main_arg1) := by
  rw [after_ops, stayG_arg1, stayF_arg1, stayE_arg1, stayD_arg1, stayC_arg1, stayB_arg1, stayA_arg1]
/-- After the whole line argument 2's buffer is as it was. -/
theorem arg2_eq : after ops V (Proc.devRef .tc main_arg2) = V (Proc.devRef .tc main_arg2) := by
  rw [after_ops, stayG_arg2, stayF_arg2, stayE_arg2, stayD_arg2, stayC_arg2, stayB_arg2, stayA_arg2]
/-- After the whole line argument 3's buffer is as it was. -/
theorem arg3_eq : after ops V (Proc.devRef .tc main_arg3) = V (Proc.devRef .tc main_arg3) := by
  rw [after_ops, stayG_arg3, stayF_arg3, stayE_arg3, stayD_arg3, stayC_arg3, stayB_arg3, stayA_arg3]
/-- After the whole line argument 4's buffer is as it was. -/
theorem arg4_eq : after ops V (Proc.devRef .tc main_arg4) = V (Proc.devRef .tc main_arg4) := by
  rw [after_ops, stayG_arg4, stayF_arg4, stayE_arg4, stayD_arg4, stayC_arg4, stayB_arg4, stayA_arg4]
/-- After the whole line argument 5's buffer is as it was. -/
theorem arg5_eq : after ops V (Proc.devRef .tc main_arg5) = V (Proc.devRef .tc main_arg5) := by
  rw [after_ops, stayG_arg5, stayF_arg5, stayE_arg5, stayD_arg5, stayC_arg5, stayB_arg5, stayA_arg5]

end Whole

/-! ## The run, read -/

/-- Every weakly fair execution of the idealized reference terminates, nothing faulting, with its result at the last
    stage of the six arguments as launched and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91)
        = val_main_v91 (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v91).trans (result_eq (launchContents m c)),
       (h c main_arg0).trans (arg0_eq (launchContents m c)),
       (h c main_arg1).trans (arg1_eq (launchContents m c)),
       (h c main_arg2).trans (arg2_eq (launchContents m c)),
       (h c main_arg3).trans (arg3_eq (launchContents m c)),
       (h c main_arg4).trans (arg4_eq (launchContents m c)),
       (h c main_arg5).trans (arg5_eq (launchContents m c))⟩)
    (run_raw (F := Ideal) m ρ)

end Cert.ReferenceIdeal.Stages

end
-- ==== Proof.LibColumnOps.lean ====
/-
  A vector kept as a column, and a column spread along the rows, as the host spells them (program-independent;
  imports only the library).

  The host writes "keep the reduced axis" as a broadcast of the `[a]` vector into the column `[a, 1]` along axis 0, and
  "divide every row by its own number" as a broadcast of the column `[a, 1]` into `[a, b]` along both axes. Read at an
  index, the first is the vector's entry at the row, and the second the column's entry at the row: the value depends
  on the row alone.
-/
import Idealize.ShloMosaic.Lib.ValueIdx
import Idealize.ShloMosaic.Lib.Pipeline.Value

noncomputable section

namespace Cert.ColumnOps

open Idealize.ShloMosaic Idealize.ShloMosaic.ValueIdx

variable {α : Type}

/-- An `[a]` vector broadcast along axis 0 into the column `[a, 1]` reads, at `(i, z)`, the vector's entry `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (z : Fin 1) :
    broadcastInDim ⟨2, ![a, 1]⟩ ![0] h x (ix2 i z) = x (ix1 i) :=
  broadcastInDim_apply _ h x _ _ (fun c => match c with
    | ⟨0, _⟩ => by
      show i.val = if a = 1 then 0 else i.val
      by_cases ha : a = 1
      · rw [if_pos ha]; have := i.isLt; omega
      · rw [if_neg ha])

/-- A column `[a, 1]` broadcast along both axes into `[a, b]` reads, at `(i, j)`, the column's entry `(i, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

end Cert.ColumnOps

end
-- ==== Proof.RefSide.lean ====
/-
  The reference program's stages are the same named functions.

  The reference applies to the six arguments: a product, the aggregation over the edges, the first bias spread over the
  rows, a maximum with zero, a second product, the aggregation again, the second bias, and the logarithm of each row's
  softmax (the row's maximum taken once more against −∞, which changes nothing). Its node lists, degrees and edge weights
  are the same operations on the same edge array as the kernel program's, written out a second time for the second
  layer; its two products are the host's general product where the kernel's are products tile by tile; and a bias is
  spread by two broadcasts where the kernel's is a cast to a row read at every row. At the ideal values each stage is,
  index by index, the function the kernel side is stated with.
-/
import proofs.«123740_j44676249813403_1_alg».proof.Proof.RefRead
import proofs.«123740_j44676249813403_1_alg».proof.Proof.Region0
import proofs.«123740_j44676249813403_1_alg».proof.Proof.Region1
import proofs.«123740_j44676249813403_1_alg».proof.Proof.Region2
import proofs.«123740_j44676249813403_1_alg».proof.Proof.HostTerms
import proofs.«123740_j44676249813403_1_alg».proof.Proof.Whole
import proofs.«123740_j44676249813403_1_alg».proof.Proof.LibRowOps
import proofs.«123740_j44676249813403_1_alg».proof.Proof.LibColumnOps
import Idealize.ShloMosaic.Lib.ValueIdx
import Idealize.ShloMosaic.Lib.ValueLayout
import Idealize.ShloMosaic.PureOps.Ideal.Laws

set_option maxRecDepth 16384

noncomputable section

namespace Cert.RefSide

open Cert.ReferenceIdeal Cert.ReferenceIdeal.Gen Cert.ReferenceIdeal.ReadP
open Idealize.ShloMosaic Idealize.ShloMosaic.TcCoe Idealize.SL.Sem Idealize.ShloMosaic.ValueIdx

/-- The bit pattern of −∞ denotes the least extended real. -/
theorem negInf_eq_bot : Ideal.ofBits .f32 0xFF800000#32 = (⊥ : EReal) := by simp [Ideal.ofBits, Ideal.ieee]

/-! ## The first product -/

/-- The reference's first product is the product of the whole arrays. -/
theorem product1 (x0 : (⟨S100000x512, .f32⟩ : BufTy).Contents (Elt Ideal)) (x2 : (⟨S512x16, .f32⟩ : BufTy).Contents (Elt Ideal)) :
    val_main_v4 (F := Ideal) x0 x2 = Cert.KernelIdeal.Whole.prodA x0 x2 := by
  funext i
  rw [val_main_v4_apply]
  unfold Cert.KernelIdeal.Whole.prodA
  refine Finset.sum_congr rfl fun k _ => ?_
  have el : lidx_main_v4 i k = ix2 (i 0) k := funext fun a => Fin.ext (by match a with | ⟨0, _⟩ => rfl | ⟨1, _⟩ => rfl)
  have er : ridx_main_v4 i k = ix2 k (i 1) := funext fun a => Fin.ext (by match a with | ⟨0, _⟩ => rfl | ⟨1, _⟩ => rfl)
  rw [el, er]
  rfl

/-! ## The first aggregation -/

/-- The reference's first aggregation is the 16-wide aggregation of its first product along the same node lists with
    the same edge weights: the same operations on the same edge array. -/
theorem aggregation1 (x0 : (⟨S100000x512, .f32⟩ : BufTy).Contents (Elt Ideal)) (x1 : (⟨S2x3200000, .i32⟩ : BufTy).Contents (Elt Ideal)) (x2 : (⟨S512x16, .f32⟩ : BufTy).Contents (Elt Ideal)) :
    val_main_v43 (F := Ideal) x0 x1 x2
      = Cert.KernelIdeal.Whole.aggregate16 (F := Ideal) (val_main_v4 (F := Ideal) x0 x2) (Cert.KernelIdeal.Whole.srcNodes x1) (Cert.KernelIdeal.Whole.dstNodes x1)
          (Cert.KernelIdeal.Whole.edgeWeight (F := Ideal) (Cert.KernelIdeal.Whole.srcNodes x1) (Cert.KernelIdeal.Whole.dstNodes x1)) := rfl

/-! ## The second product -/

/-- The reference's second product, of the aggregate plus the bias cut below at zero, is the kernel side's function of
    the aggregate, the bias cast to a row and the weight array. -/
theorem product2 (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x32, .f32⟩ : BufTy).Contents (Elt Ideal)) :
    val_main_v48 (F := Ideal) x0 x1 x2 x3 x4
      = Cert.KernelIdeal.Whole.prodB (val_main_v43 (F := Ideal) x0 x1 x2)
          (shapeCast Cert.KernelIdeal.S1x16 x3 Cert.KernelIdeal.Gen.shapeCasts_S16_S1x16) x4 := by
  funext i
  obtain ⟨r, j, rfl⟩ : ∃ (r : Fin 100000) (j : Fin 32), i = ix2 r j := ⟨i 0, i 1, eq_ix2 i⟩
  rw [val_main_v48_apply]
  unfold Cert.KernelIdeal.Whole.prodB
  refine Finset.sum_congr rfl fun k _ => ?_
  have el : lidx_main_v48 (ix2 r j) k = ix2 r k := funext fun a => Fin.ext (by match a with | ⟨0, _⟩ => rfl | ⟨1, _⟩ => rfl)
  have er : ridx_main_v48 (ix2 r j) k = ix2 k j := funext fun a => Fin.ext (by match a with | ⟨0, _⟩ => rfl | ⟨1, _⟩ => rfl)
  have eb : idx_main_v44 (idx_main_v45 (ix2 r k)) = ix1 k := funext fun a => Fin.ext (by match a with | ⟨0, _⟩ => rfl)
  have hb : shapeCast Cert.KernelIdeal.S1x16 x3 Cert.KernelIdeal.Gen.shapeCasts_S16_S1x16 (ix2 (0 : Fin 1) k) = x3 (ix1 k) :=
    shapeCast_a_1a_apply x3 _ (0 : Fin 1) k
  rw [el, er, val_main_v47_apply, val_main_v46_apply, val_main_v45_apply, val_main_v44_apply, eb,
    val_main_call1_v0_apply, val_main_call1_cst_apply, hb]
  simp only [Ideal.maximumf_def, Ideal.addf_def, Ideal.ofBits_def, Ideal.ofBits_zero_f32] <;> rfl

/-! ## The second aggregation -/

/-- The reference's second aggregation is the 32-wide aggregation of its second product along the same node lists
    with the same edge weights (which the reference forms a second time from the same edge array). -/
theorem aggregation2 (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x32, .f32⟩ : BufTy).Contents (Elt Ideal)) :
    val_main_v87 (F := Ideal) x0 x1 x2 x3 x4
      = Cert.KernelIdeal.Whole.aggregate32 (F := Ideal) (val_main_v48 (F := Ideal) x0 x1 x2 x3 x4) (Cert.KernelIdeal.Whole.srcNodes x1) (Cert.KernelIdeal.Whole.dstNodes x1)
          (Cert.KernelIdeal.Whole.edgeWeight (F := Ideal) (Cert.KernelIdeal.Whole.srcNodes x1) (Cert.KernelIdeal.Whole.dstNodes x1)) := rfl

/-! ## The logarithm of the softmax -/

/-- The host's reduction along the rows of a `[100000, 32]` array drops axis 1. -/
theorem reducesRows : S100000x32.Reduces [1] S100000 := by decide

/-- The reference's shift of an array's rows by their maxima: the maximum along each row from −∞, taken once more
    against −∞, kept as a column and spread back over the row, subtracted. -/
def hostShift (Y : FVec Ideal S100000x32 .f32) : FVec Ideal S100000x32 .f32 :=
  subf (F := Ideal) Y (broadcastInDim S100000x32 ![0, 1] bcast_S100000x1_S100000x32_0_1 (broadcastInDim S100000x1 ![0] bcast_S100000_S100000x1_0 (maximumf (F := Ideal) (broadcastInDim S100000 ![] bcast_S_S100000 (constant (F := Ideal) S_ .f32 0xFF800000#32)) (Host.reduce (FloatOps.maximumf (F := Ideal) (φ := .f32)) Y (constant (F := Ideal) S_ .f32 0xFF800000#32) reducesTo_S100000x32_S100000_d1 h_S_))))

/-- The reference's last stretch as a function of the array it is applied to: the shifted rows minus the logarithm of
    the row sums of their exponentials, the sums kept as a column and spread back. -/
def hostLogSoftmax (Y : FVec Ideal S100000x32 .f32) : FVec Ideal S100000x32 .f32 :=
  subf (F := Ideal) (hostShift Y)
    (broadcastInDim S100000x32 ![0, 1] bcast_S100000x1_S100000x32_0_1 (Host.log (F := Ideal) (broadcastInDim S100000x1 ![0] bcast_S100000_S100000x1_0 (Host.reduceAdd (F := Ideal) (Host.exp (F := Ideal) (hostShift Y)) (constant (F := Ideal) S_ .f32 0x00000000#32) reducesTo_S100000x32_S100000_d1 h_S_))))

theorem hostExp_apply (v : FVec Ideal S100000x32 .f32) (i : S100000x32.Idx) :
    Host.exp (F := Ideal) (φ := .f32) v i = Ideal.exp (v i) := rfl
theorem hostLog_apply (v : FVec Ideal S100000x1 .f32) (i : S100000x1.Idx) :
    Host.log (F := Ideal) (φ := .f32) v i = Ideal.log (v i) := rfl

/-- The host's maximum along the rows of any `[100000, 32]` array from −∞, at row `r`: the fold of `max` over the row's
    entries. -/
theorem hostRowMax_apply (Y : FVec Ideal S100000x32 .f32) (r : Fin 100000) :
    (Host.reduce (FloatOps.maximumf (F := Ideal) (φ := .f32)) Y (constant (F := Ideal) S_ .f32 0xFF800000#32) reducesTo_S100000x32_S100000_d1 h_S_) (ix1 r) = ((Finset.univ : Finset (Fin 32)).fold max (Ideal.ofBits .f32 0xFF800000#32) (fun k => Y (ix2 r k))) := by
  refine (Host.reduce_eq_fold_single (FloatOps.maximumf (F := Ideal) (φ := .f32)) Y (constant (F := Ideal) S_ .f32 0xFF800000#32)
    reducesTo_S100000x32_S100000_d1 reducesRows h_S_ (ix1 r)).trans ?_
  have hf : (Y ∘ reducesRows.lift (ix1 r)) = fun k : Fin 32 => Y (ix2 r k) :=
    funext fun k => congrArg Y (Cert.RowOps.lift_row reducesRows r k)
  rw [hf, constant_apply]
  rfl

/-- The host's sum along the rows of any `[100000, 32]` array from zero, at row `r`: the sum of the row's entries. -/
theorem hostRowSum_apply (E : FVec Ideal S100000x32 .f32) (r : Fin 100000) :
    Host.reduceAdd (F := Ideal) E (constant (F := Ideal) S_ .f32 0x00000000#32) reducesTo_S100000x32_S100000_d1 h_S_ (ix1 r) = ∑ k : Fin 32, E (ix2 r k) := by
  simp only [Host.reduceAdd, Ideal.hostReduceAdd_def]
  rw [Ideal.hostReduceAdd_single reducesTo_S100000x32_S100000_d1 reducesRows, constant_apply, Ideal.ofBits_zero_f32, zero_add]
  exact Finset.sum_congr rfl fun k _ => congrArg E (Cert.RowOps.lift_row reducesRows r k)

/-- The reference's last stretch on any array `Y`, at `(r, j)`: the logarithm of the softmax of row `r` of `Y`. -/
theorem hostLogSoftmax_apply (Y : FVec Ideal S100000x32 .f32) (r : Fin 100000) (j : Fin 32) :
    hostLogSoftmax Y (ix2 r j) = Cert.KernelIdeal.Whole.logSoftmaxRow (fun k : Fin 32 => Y (ix2 r k)) j := by
  -- the row's maximum (the second maximum against −∞ changes nothing), as a column, spread back
  have hbc : broadcastInDim S100000 ![] bcast_S_S100000 (constant (F := Ideal) S_ .f32 0xFF800000#32) (ix1 r) = Ideal.ofBits .f32 0xFF800000#32 :=
    (broadcastInDim_apply _ bcast_S_S100000 (constant (F := Ideal) S_ .f32 0xFF800000#32) (ix1 r) (fun a => a.elim0) (fun a => a.elim0)).trans
      (constant_apply (s := S_) (φ := .f32) 0xFF800000#32 (fun a => a.elim0))
  have hMax : (maximumf (F := Ideal) (broadcastInDim S100000 ![] bcast_S_S100000 (constant (F := Ideal) S_ .f32 0xFF800000#32)) (Host.reduce (FloatOps.maximumf (F := Ideal) (φ := .f32)) Y (constant (F := Ideal) S_ .f32 0xFF800000#32) reducesTo_S100000x32_S100000_d1 h_S_)) (ix1 r) = ((Finset.univ : Finset (Fin 32)).fold max (Ideal.ofBits .f32 0xFF800000#32) (fun k => Y (ix2 r k))) := by
    refine (maximumf_apply _ _ (ix1 r)).trans ?_
    rw [hbc, hostRowMax_apply, negInf_eq_bot]
    exact max_eq_right bot_le
  have hM : ∀ k : Fin 32, (broadcastInDim S100000x32 ![0, 1] bcast_S100000x1_S100000x32_0_1 (broadcastInDim S100000x1 ![0] bcast_S100000_S100000x1_0 (maximumf (F := Ideal) (broadcastInDim S100000 ![] bcast_S_S100000 (constant (F := Ideal) S_ .f32 0xFF800000#32)) (Host.reduce (FloatOps.maximumf (F := Ideal) (φ := .f32)) Y (constant (F := Ideal) S_ .f32 0xFF800000#32) reducesTo_S100000x32_S100000_d1 h_S_)))) (ix2 r k) = ((Finset.univ : Finset (Fin 32)).fold max (Ideal.ofBits .f32 0xFF800000#32) (fun k => Y (ix2 r k))) := fun k =>
    (Cert.ColumnOps.broadcastInDim_a1_ab_apply _ _ r k).trans
      ((Cert.ColumnOps.broadcastInDim_a_a1_apply _ _ r (0 : Fin 1)).trans hMax)
  -- the shifted entry and its exponential
  have hS : ∀ k : Fin 32, hostShift Y (ix2 r k) = Y (ix2 r k) - ((Finset.univ : Finset (Fin 32)).fold max (Ideal.ofBits .f32 0xFF800000#32) (fun k => Y (ix2 r k))) := fun k => by
    unfold hostShift
    exact (subf_apply Y _ (ix2 r k)).trans (congrArg (fun b : EReal => Y (ix2 r k) - b) (hM k))
  have hE : ∀ k : Fin 32, Host.exp (F := Ideal) (hostShift Y) (ix2 r k) = Ideal.exp (Y (ix2 r k) - ((Finset.univ : Finset (Fin 32)).fold max (Ideal.ofBits .f32 0xFF800000#32) (fun k => Y (ix2 r k)))) := fun k =>
    (hostExp_apply (hostShift Y) (ix2 r k)).trans (congrArg Ideal.exp (hS k))
  -- the logarithm of the row's sum, as a column, spread back
  have hL : (broadcastInDim S100000x32 ![0, 1] bcast_S100000x1_S100000x32_0_1 (Host.log (F := Ideal) (broadcastInDim S100000x1 ![0] bcast_S100000_S100000x1_0 (Host.reduceAdd (F := Ideal) (Host.exp (F := Ideal) (hostShift Y)) (constant (F := Ideal) S_ .f32 0x00000000#32) reducesTo_S100000x32_S100000_d1 h_S_)))) (ix2 r j)
      = Ideal.log (∑ k : Fin 32, Ideal.exp (Y (ix2 r k) - ((Finset.univ : Finset (Fin 32)).fold max (Ideal.ofBits .f32 0xFF800000#32) (fun k => Y (ix2 r k))))) :=
    (Cert.ColumnOps.broadcastInDim_a1_ab_apply _ _ r j).trans
      ((hostLog_apply _ (ix2 r (0 : Fin 1))).trans (congrArg Ideal.log
        (((Cert.ColumnOps.broadcastInDim_a_a1_apply _ _ r (0 : Fin 1)).trans
            (hostRowSum_apply (Host.exp (F := Ideal) (hostShift Y)) r)).trans
          (Finset.sum_congr rfl fun k _ => hE k))))
  unfold hostLogSoftmax
  refine (subf_apply _ _ (ix2 r j)).trans ?_
  rw [hS j, hL]
  rfl

section LogSoftmax

variable (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x32, .f32⟩ : BufTy).Contents (Elt Ideal)) (x5 : (⟨S32, .f32⟩ : BufTy).Contents (Elt Ideal))

/-- The reference's result is its last stretch applied to the second aggregate plus the second bias. -/
theorem result_stage :
    val_main_v91 (F := Ideal) x0 x1 x2 x3 x4 x5 = hostLogSoftmax (val_main_v90 (F := Ideal) x0 x1 x2 x3 x4 x5) := rfl

/-- The aggregate plus the second bias, at `(r, k)`. -/
theorem biased_apply (r : Fin 100000) (k : Fin 32) :
    val_main_v90 (F := Ideal) x0 x1 x2 x3 x4 x5 (ix2 r k)
      = val_main_v87 (F := Ideal) x0 x1 x2 x3 x4 (ix2 r k)
        + shapeCast Cert.KernelIdeal.S1x32 x5 Cert.KernelIdeal.Gen.shapeCasts_S32_S1x32 (ix2 (0 : Fin 1) k) := by
  have eb : idx_main_v88 (idx_main_v89 (ix2 r k)) = ix1 k := funext fun a => Fin.ext (by match a with | ⟨0, _⟩ => rfl)
  rw [val_main_v90_apply, val_main_v89_apply, val_main_v88_apply, eb, shapeCast_a_1a_apply]
  rfl

/-- The reference's result is the kernel side's logarithm of the softmax of the aggregate's rows plus the bias row. -/
theorem logSoftmax :
    val_main_v91 (F := Ideal) x0 x1 x2 x3 x4 x5
      = Cert.KernelIdeal.Whole.lsmC (val_main_v87 (F := Ideal) x0 x1 x2 x3 x4)
          (shapeCast Cert.KernelIdeal.S1x32 x5 Cert.KernelIdeal.Gen.shapeCasts_S32_S1x32) := by
  funext i
  obtain ⟨r, j, rfl⟩ : ∃ (r : Fin 100000) (j : Fin 32), i = ix2 r j := ⟨i 0, i 1, eq_ix2 i⟩
  refine ((congrFun (result_stage x0 x1 x2 x3 x4 x5) (ix2 r j)).trans
    (hostLogSoftmax_apply (val_main_v90 (F := Ideal) x0 x1 x2 x3 x4 x5) r j)).trans ?_
  refine (congrArg (fun h : Fin 32 → EReal => Cert.KernelIdeal.Whole.logSoftmaxRow h j)
    (funext fun k => biased_apply x0 x1 x2 x3 x4 x5 r k)).trans ?_
  exact (Cert.KernelIdeal.Whole.lsmC_apply _ _ r j).symm

end LogSoftmax

/-! ## The whole reference -/

/-- The reference's result is the kernel program's function of the six arguments. -/
theorem reference_value (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x32, .f32⟩ : BufTy).Contents (Elt Ideal)) (x5 : (⟨S32, .f32⟩ : BufTy).Contents (Elt Ideal)) :
    val_main_v91 (F := Ideal) x0 x1 x2 x3 x4 x5 = Cert.KernelIdeal.Whole.kernelValue x0 x1 x2 x3 x4 x5 := by
  rw [logSoftmax, aggregation2, product2, aggregation1, product1]
  rfl

end Cert.RefSide

end
-- ==== Proof.lean ====
/-
  A two-layer graph convolution followed by the logarithm of a softmax, over 100000 nodes and 3200000 edges: the kernel
  program against its reference, at the ideal values.

  Both programs form from the edge array the source and target lists (with a self loop per node), the nodes' degrees
  and the edges' weights `deg(src)^(-1/2) · deg(dst)^(-1/2)`, and both compute
  `logsoftmax (Agg (max (Agg (x · W₁) + b₁) 0 · W₂) + b₂)`, where `Agg` adds into each target's row the weighted row of the
  source. The kernel program does the two products and the final row-wise step in three kernel regions, tile by tile
  over row blocks, rounding the products' operands to a narrower format (the identity at the ideal values) and forming
  the edge lists once; the reference uses the host's general products and forms the edge lists once per layer. The proof
  names the result of the kernel program's run (Proof/KernelRun.lean), reads each region's output array as one
  function of the arrays the region finds (Proof/Region0.lean, Region1.lean, Region2.lean), follows the buffers through
  the host operations between the regions (Proof/HostTerms.lean, Walk.lean) to one function of the six arguments
  (Proof/Whole.lean), and shows the reference's stages equal to the same function (Proof/RefSide.lean, over the
  reference's run as a line of operations, Proof/RefLine.lean, read piece by piece, Proof/RefStages.lean, against its
  stages, Proof/RefRead.lean). No rewrite was applied in idealizing the
  kernel, so there is nothing to preserve; the three frames are the generated ones and the reference's run.
-/
import proofs.«123740_j44676249813403_1_alg».proof.Defs
import proofs.«123740_j44676249813403_1_alg».proof.Proof.Gen.Kernel
import proofs.«123740_j44676249813403_1_alg».proof.Proof.Gen.Kernel.Skeleton
import proofs.«123740_j44676249813403_1_alg».proof.Proof.Gen.Kernel.Launch
import proofs.«123740_j44676249813403_1_alg».proof.Proof.Gen.Kernel.Points
import proofs.«123740_j44676249813403_1_alg».proof.Proof.Gen.Kernel.Frame
import proofs.«123740_j44676249813403_1_alg».proof.Proof.Gen.KernelIdeal
import proofs.«123740_j44676249813403_1_alg».proof.Proof.Gen.KernelIdeal.Skeleton
import proofs.«123740_j44676249813403_1_alg».proof.Proof.Gen.KernelIdeal.Launch
import proofs.«123740_j44676249813403_1_alg».proof.Proof.Gen.KernelIdeal.Points
import proofs.«123740_j44676249813403_1_alg».proof.Proof.Gen.KernelIdeal.Frame
import proofs.«123740_j44676249813403_1_alg».proof.Proof.Gen.ReferenceIdeal
import proofs.«123740_j44676249813403_1_alg».proof.Proof.Gen.Pre_finite_inputs
import proofs.«123740_j44676249813403_1_alg».proof.Proof.KernelRun
import proofs.«123740_j44676249813403_1_alg».proof.Proof.Walk
import proofs.«123740_j44676249813403_1_alg».proof.Proof.RefLine
import proofs.«123740_j44676249813403_1_alg».proof.Proof.RefRead
import proofs.«123740_j44676249813403_1_alg».proof.Proof.RefStages
import proofs.«123740_j44676249813403_1_alg».proof.Proof.RefSide
import Idealize.ShloMosaic.Adequacy
import Idealize.ShloMosaic.Init

noncomputable section

namespace Cert.Proof

open Idealize.ShloMosaic Idealize.ShloMosaic.TcCoe Idealize.SL.Sem

/-- The kernel program as printed runs, and leaves its arguments as they were. -/
theorem frame_kernel : Cert.frame_Kernel := fun m ρ _ => Cert.Kernel.Gen.frame m ρ

/-- The idealized kernel program runs, and leaves its arguments as they were. -/
theorem frame_kernelIdeal : Cert.frame_KernelIdeal := fun m ρ _ => Cert.KernelIdeal.Gen.frame m ρ

/-- The idealized reference runs, and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Stages.run m ρ)

/-- From memories that agree on the six arguments both idealized programs end with the same result: the one function
    of the arguments that the kernel side (`last_value`) and the reference side (`reference_value`) are each read as. -/
theorem algebraic : Cert.algebraic_KernelIdeal_ReferenceIdeal := by
  intro m ρ m' ρ' _ hagree
  refine ⟨fun c => Cert.KernelIdeal.Whole.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨((h c).1).trans (Cert.KernelIdeal.Whole.last_value m ρ c), (h c).2⟩)
      (Cert.KernelIdeal.Whole.run_last (F := Ideal) m ρ)
  · refine (θ_run Cert.ReferenceIdeal.defs _ _).mono (fun r h c => ⟨?_, (h c).2⟩)
      (Cert.ReferenceIdeal.Stages.run m' ρ')
    refine ((h c).1).trans ((Cert.RefSide.reference_value _ _ _ _ _ _).trans ?_)
    obtain ⟨a0, a1, a2, a3, a4, a5⟩ := hagree c
    rw [a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
